-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x24 : Shape := ⟨2, ![64, 24]⟩
abbrev S24 : Shape := ⟨1, ![24]⟩
abbrev S24x16 : Shape := ⟨2, ![24, 16]⟩
abbrev S16 : Shape := ⟨1, ![16]⟩
abbrev S64x12 : Shape := ⟨2, ![64, 12]⟩
abbrev S12 : Shape := ⟨1, ![12]⟩
abbrev S12x2 : Shape := ⟨2, ![12, 2]⟩
abbrev S2 : Shape := ⟨1, ![2]⟩
abbrev S16x12 : Shape := ⟨2, ![16, 12]⟩
abbrev S12x3 : Shape := ⟨2, ![12, 3]⟩
abbrev S3 : Shape := ⟨1, ![3]⟩
abbrev S64x3 : Shape := ⟨2, ![64, 3]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S24x16 : S_.BroadcastsInDim S24x16 (![] : Fin 0 → Fin S24x16.rank)
  reducesTo_S24x16_S_d0_1 : S24x16.ReducesTo [0, 1] S_
  bcast_S_S16 : S_.BroadcastsInDim S16 (![] : Fin 0 → Fin S16.rank)
  reducesTo_S16_S_d0 : S16.ReducesTo [0] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_
  bcast_S_S12x2 : S_.BroadcastsInDim S12x2 (![] : Fin 0 → Fin S12x2.rank)
  reducesTo_S12x2_S_d0_1 : S12x2.ReducesTo [0, 1] S_
  bcast_S_S2 : S_.BroadcastsInDim S2 (![] : Fin 0 → Fin S2.rank)
  reducesTo_S2_S_d0 : S2.ReducesTo [0] S_
  bcast_S_S16x12 : S_.BroadcastsInDim S16x12 (![] : Fin 0 → Fin S16x12.rank)
  reducesTo_S16x12_S_d0_1 : S16x12.ReducesTo [0, 1] S_
  bcast_S_S12x3 : S_.BroadcastsInDim S12x3 (![] : Fin 0 → Fin S12x3.rank)
  reducesTo_S12x3_S_d0_1 : S12x3.ReducesTo [0, 1] S_
  bcast_S_S3 : S_.BroadcastsInDim S3 (![] : Fin 0 → Fin S3.rank)
  reducesTo_S3_S_d0 : S3.ReducesTo [0] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S3 .f32) (main_arg22 : FVec F S3 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S3 .f32 := Host.absf main_arg21
  let main_cst_40 : FVec F S_ .f32 := constant S_ .f32 0x7F800000#32
  let main_v105 : FVec F S3 .f32 := broadcastInDim S3 ![] bcast_S_S3 main_cst_40
  let main_v106 : IVec S3 1 := cmpf .olt main_v104 main_v105
  let main_c_41 : IVec S_ 1 := constantI S_ 1 1#1
  let main_v107 : IVec S_ 1 := (fun x v => Host.reduce IntOp.andi x v reducesTo_S3_S_d0 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg18 : FVec F S3 .f32) (main_arg19 : FVec F S64 .f32) (main_arg20 : FVec F S64 .f32) (main_arg21 : FVec F S3 .f32) (main_arg22 : FVec F S3 .f32) (main_v83 : IVec S_ 1) (main_v84 : FVec F S64x3 .f32) (main_cst_32 : FVec F S_ .f32) : IVec S_ 1 :=
  let main_v85 : FVec F S64x3 .f32 := broadcastInDim S64x3 ![] bcast_S_S64x3 main_cst_32
  let main_v86 : IVec S64x3 1 := cmpf .olt main_v84 main_v85
  let main_c_33 : IVec S_ 1 := constantI S_ 1 1#1
  let main_v87 : IVec S_ 1 := (fun x v => Host.reduce IntOp.andi x v reducesTo_S64x3_S_d0_1 h_S_) main_v86 main_c_33
  let main_v88 : IVec S_ 1 := andi main_v83 main_v87
  let main_v89 : FVec F S3 .f32 := Host.absf main_arg18
  let main_cst_34 : FVec F S_ .f32 := constant S_ .f32 0x7F800000#32
  let main_v90 : FVec F S3 .f32 := broadcastInDim S3 ![] bcast_S_S3 main_cst_34
  let main_v91 : IVec S3 1 := cmpf .olt main_v89 main_v90
  let main_c_35 : IVec S_ 1 := constantI S_ 1 1#1
  let main_v92 : IVec S_ 1 := (fun x v => Host.reduce IntOp.andi x v reducesTo_S3_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S12 .f32) (main_arg15 : FVec F S12x3 .f32) (main_arg16 : FVec F S3 .f32) (main_arg17 : FVec F S64x3 .f32) (main_arg18 : FVec F S3 .f32) (main_arg19 : FVec F S64 .f32) (main_arg20 : FVec F S64 .f32) (main_arg21 : FVec F S3 .f32) (main_arg22 : FVec F S3 .f32) (main_v63 : IVec S_ 1) (main_v67 : IVec S_ 1) : IVec S_ 1 :=
  let main_v68 : IVec S_ 1 := andi main_v63 main_v67
  let main_v69 : FVec F S12 .f32 := Host.absf main_arg14
  let main_cst_26 : FVec F S_ .f32 := constant S_ .f32 0x7F800000#32
  let main_v70 : FVec F S12 .f32 := broadcastInDim S12 ![] bcast_S_S12 main_cst_26
  let main_v71 : IVec S12 1 := cmpf .olt main_v69 main_v70
  let main_c_27 : IVec S_ 1 := constantI S_ 1 1#1
  let main_v72 : IVec S_ 1 := (fun x v => Host.reduce IntOp.andi x v reducesTo_S12_S_d0 h_S_) main_v71 main_c_27
  let main_v73 : IVec S_ 1 := andi main_v68 main_v72
  let main_v74 : FVec F S12x3 .f32 := Host.absf main_arg15
  let main_cst_28 : FVec F S_ .f32 := constant S_ .f32 0x7F800000#32
  let main_v75 : FVec F S12x3 .f32 := broadcastInDim S12x3 ![] bcast_S_S12x3 main_cst_28
  let main_v76 : IVec S12x3 1 := cmpf .olt main_v74 main_v75
  let main_c_29 : IVec S_ 1 := constantI S_ 1 1#1
  let main_v77 : IVec S_ 1 := (fun x v => Host.reduce IntOp.andi x v reducesTo_S12x3_S_d0_1 h_S_) main_v76 main_c_29
  let main_v78 : IVec S_ 1 := andi main_v73 main_v77
  let main_v79 : FVec F S3 .f32 := Host.absf main_arg16
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  let main_v84 : FVec F S64x3 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S12x3 .f32) (main_arg12 : FVec F S3 .f32) (main_arg13 : FVec F S16x12 .f32) (main_arg14 : FVec F S12 .f32) (main_arg15 : FVec F S12x3 .f32) (main_arg16 : FVec F S3 .f32) (main_arg17 : FVec F S64x3 .f32) (main_arg18 : FVec F S3 .f32) (main_arg19 : FVec F S64 .f32) (main_arg20 : FVec F S64 .f32) (main_arg21 : FVec F S3 .f32) (main_arg22 : FVec F S3 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12x3 .f32 := Host.absf main_arg11
  let main_cst_20 : FVec F S_ .f32 := constant S_ .f32 0x7F800000#32
  let main_v55 : FVec F S12x3 .f32 := broadcastInDim S12x3 ![] bcast_S_S12x3 main_cst_20
  let main_v56 : IVec S12x3 1 := cmpf .olt main_v54 main_v55
  let main_c_21 : IVec S_ 1 := constantI S_ 1 1#1
  let main_v57 : IVec S_ 1 := (fun x v => Host.reduce IntOp.andi x v reducesTo_S12x3_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S16x12 .f32 := Host.absf main_arg13
  let main_cst_24 : FVec F S_ .f32 := constant S_ .f32 0x7F800000#32
  let main_v65 : FVec F S16x12 .f32 := broadcastInDim S16x12 ![] bcast_S_S16x12 main_cst_24
  let main_v66 : IVec S16x12 1 := cmpf .olt main_v64 main_v65
  let main_c_25 : IVec S_ 1 := constantI S_ 1 1#1
  let main_v67 : IVec S_ 1 := (fun x v => Host.reduce IntOp.andi x v reducesTo_S16x12_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S12x2 .f32) (main_arg8 : FVec F S2 .f32) (main_arg9 : FVec F S16x12 .f32) (main_arg10 : FVec F S12 .f32) (main_arg11 : FVec F S12x3 .f32) (main_arg12 : FVec F S3 .f32) (main_arg13 : FVec F S16x12 .f32) (main_arg14 : FVec F S12 .f32) (main_arg15 : FVec F S12x3 .f32) (main_arg16 : FVec F S3 .f32) (main_arg17 : FVec F S64x3 .f32) (main_arg18 : FVec F S3 .f32) (main_arg19 : FVec F S64 .f32) (main_arg20 : FVec F S64 .f32) (main_arg21 : FVec F S3 .f32) (main_arg22 : FVec F S3 .f32) (main_v33 : IVec S_ 1) : IVec S_ 1 :=
  let main_v34 : FVec F S12x2 .f32 := Host.absf main_arg7
  let main_cst_12 : FVec F S_ .f32 := constant S_ .f32 0x7F800000#32
  let main_v35 : FVec F S12x2 .f32 := broadcastInDim S12x2 ![] bcast_S_S12x2 main_cst_12
  let main_v36 : IVec S12x2 1 := cmpf .olt main_v34 main_v35
  let main_c_13 : IVec S_ 1 := constantI S_ 1 1#1
  let main_v37 : IVec S_ 1 := (fun x v => Host.reduce IntOp.andi x v reducesTo_S12x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S16x12 .f32 := Host.absf main_arg9
  let main_cst_16 : FVec F S_ .f32 := constant S_ .f32 0x7F800000#32
  let main_v45 : FVec F S16x12 .f32 := broadcastInDim S16x12 ![] bcast_S_S16x12 main_cst_16
  let main_v46 : IVec S16x12 1 := cmpf .olt main_v44 main_v45
  let main_c_17 : IVec S_ 1 := constantI S_ 1 1#1
  let main_v47 : IVec S_ 1 := (fun x v => Host.reduce IntOp.andi x v reducesTo_S16x12_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S16 .f32) (main_arg5 : FVec F S64x12 .f32) (main_arg6 : FVec F S12 .f32) (main_arg7 : FVec F S12x2 .f32) (main_arg8 : FVec F S2 .f32) (main_arg9 : FVec F S16x12 .f32) (main_arg10 : FVec F S12 .f32) (main_arg11 : FVec F S12x3 .f32) (main_arg12 : FVec F S3 .f32) (main_arg13 : FVec F S16x12 .f32) (main_arg14 : FVec F S12 .f32) (main_arg15 : FVec F S12x3 .f32) (main_arg16 : FVec F S3 .f32) (main_arg17 : FVec F S64x3 .f32) (main_arg18 : FVec F S3 .f32) (main_arg19 : FVec F S64 .f32) (main_arg20 : FVec F S64 .f32) (main_arg21 : FVec F S3 .f32) (main_arg22 : FVec F S3 .f32) (main_v13 : IVec S_ 1) (main_v16 : IVec S24x16 1) : IVec S_ 1 :=
  let main_c_5 : IVec S_ 1 := constantI S_ 1 1#1
  let main_v17 : IVec S_ 1 := (fun x v => Host.reduce IntOp.andi x v reducesTo_S24x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S64x12 .f32 := Host.absf main_arg5
  let main_cst_8 : FVec F S_ .f32 := constant S_ .f32 0x7F800000#32
  let main_v25 : FVec F S64x12 .f32 := broadcastInDim S64x12 ![] bcast_S_S64x12 main_cst_8
  let main_v26 : IVec S64x12 1 := cmpf .olt main_v24 main_v25
  let main_c_9 : IVec S_ 1 := constantI S_ 1 1#1
  let main_v27 : IVec S_ 1 := (fun x v => Host.reduce IntOp.andi x v reducesTo_S64x12_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S1048576x64 .f32) (main_arg1 : FVec F S64x24 .f32) (main_arg2 : FVec F S24 .f32) (main_arg3 : FVec F S24x16 .f32) (main_arg4 : FVec F S16 .f32) (main_arg5 : FVec F S64x12 .f32) (main_arg6 : FVec F S12 .f32) (main_arg7 : FVec F S12x2 .f32) (main_arg8 : FVec F S2 .f32) (main_arg9 : FVec F S16x12 .f32) (main_arg10 : FVec F S12 .f32) (main_arg11 : FVec F S12x3 .f32) (main_arg12 : FVec F S3 .f32) (main_arg13 : FVec F S16x12 .f32) (main_arg14 : FVec F S12 .f32) (main_arg15 : FVec F S12x3 .f32) (main_arg16 : FVec F S3 .f32) (main_arg17 : FVec F S64x3 .f32) (main_arg18 : FVec F S3 .f32) (main_arg19 : FVec F S64 .f32) (main_arg20 : FVec F S64 .f32) (main_arg21 : FVec F S3 .f32) (main_arg22 : FVec F S3 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x24 .f32 := Host.absf main_arg1
  let main_cst_0 : FVec F S_ .f32 := constant S_ .f32 0x7F800000#32
  let main_v5 : FVec F S64x24 .f32 := broadcastInDim S64x24 ![] bcast_S_S64x24 main_cst_0
  let main_v6 : IVec S64x24 1 := cmpf .olt main_v4 main_v5
  let main_c_1 : IVec S_ 1 := constantI S_ 1 1#1
  let main_v7 : IVec S_ 1 := (fun x v => Host.reduce IntOp.andi x v reducesTo_S64x24_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x16 .f32 := Host.absf main_arg3
  let main_cst_4 : FVec F S_ .f32 := constant S_ .f32 0x7F800000#32
  let main_v15 : FVec F S24x16 .f32 := broadcastInDim S24x16 ![] bcast_S_S24x16 main_cst_4
  let main_v16 : IVec S24x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S1048576x64 : Shape := ⟨2, ![1048576, 64]⟩
abbrev S64x24 : Shape := ⟨2, ![64, 24]⟩
abbrev S24 : Shape := ⟨1, ![24]⟩
abbrev S24x16 : Shape := ⟨2, ![24, 16]⟩
abbrev S16 : Shape := ⟨1, ![16]⟩
abbrev S64x12 : Shape := ⟨2, ![64, 12]⟩
abbrev S12 : Shape := ⟨1, ![12]⟩
abbrev S12x2 : Shape := ⟨2, ![12, 2]⟩
abbrev S2 : Shape := ⟨1, ![2]⟩
abbrev S16x12 : Shape := ⟨2, ![16, 12]⟩
abbrev S12x3 : Shape := ⟨2, ![12, 3]⟩
abbrev S3 : Shape := ⟨1, ![3]⟩
abbrev S64x3 : Shape := ⟨2, ![64, 3]⟩
abbrev S64 : Shape := ⟨1, ![64]⟩
abbrev S1048576x3 : Shape := ⟨2, ![1048576, 3]⟩
abbrev S8192x64 : Shape := ⟨2, ![8192, 64]⟩
abbrev S8192x3 : Shape := ⟨2, ![8192, 3]⟩
abbrev S2048x64 : Shape := ⟨2, ![2048, 64]⟩
abbrev S1x64 : Shape := ⟨2, ![1, 64]⟩
abbrev S2048x24 : Shape := ⟨2, ![2048, 24]⟩
abbrev S1x24 : Shape := ⟨2, ![1, 24]⟩
abbrev S2048x16 : Shape := ⟨2, ![2048, 16]⟩
abbrev S1x16 : Shape := ⟨2, ![1, 16]⟩
abbrev S2048x12 : Shape := ⟨2, ![2048, 12]⟩
abbrev S1x12 : Shape := ⟨2, ![1, 12]⟩
abbrev S2048x2 : Shape := ⟨2, ![2048, 2]⟩
abbrev S1x2 : Shape := ⟨2, ![1, 2]⟩
abbrev S2048 : Shape := ⟨1, ![2048]⟩
abbrev S2048x1 : Shape := ⟨2, ![2048, 1]⟩
abbrev S2048x3 : Shape := ⟨2, ![2048, 3]⟩
abbrev S1x3 : Shape := ⟨2, ![1, 3]⟩

abbrev nBuf : Space → Nat
  | .hbm => 24
  | .vmem => 26
  | .smem => 0
  | _ => 0

abbrev bufTy : (tb : Table) → Fin (tcTables nBuf tb) → BufTy
  | .hbm, ⟨0, _⟩ => ⟨S1048576x64, .f32⟩
  | .hbm, ⟨1, _⟩ => ⟨S64x24, .f32⟩
  | .hbm, ⟨2, _⟩ => ⟨S24, .f32⟩
  | .hbm, ⟨3, _⟩ => ⟨S24x16, .f32⟩
  | .hbm, ⟨4, _⟩ => ⟨S16, .f32⟩
  | .hbm, ⟨5, _⟩ => ⟨S64x12, .f32⟩
  | .hbm, ⟨6, _⟩ => ⟨S12, .f32⟩
  | .hbm, ⟨7, _⟩ => ⟨S12x2, .f32⟩
  | .hbm, ⟨8, _⟩ => ⟨S2, .f32⟩
  | .hbm, ⟨9, _⟩ => ⟨S16x12, .f32⟩
  | .hbm, ⟨10, _⟩ => ⟨S12, .f32⟩
  | .hbm, ⟨11, _⟩ => ⟨S12x3, .f32⟩
  | .hbm, ⟨12, _⟩ => ⟨S3, .f32⟩
  | .hbm, ⟨13, _⟩ => ⟨S16x12, .f32⟩
  | .hbm, ⟨14, _⟩ => ⟨S12, .f32⟩
  | .hbm, ⟨15, _⟩ => ⟨S12x3, .f32⟩
  | .hbm, ⟨16, _⟩ => ⟨S3, .f32⟩
  | .hbm, ⟨17, _⟩ => ⟨S64x3, .f32⟩
  | .hbm, ⟨18, _⟩ => ⟨S3, .f32⟩
  | .hbm, ⟨19, _⟩ => ⟨S64, .f32⟩
  | .hbm, ⟨20, _⟩ => ⟨S64, .f32⟩
  | .hbm, ⟨21, _⟩ => ⟨S3, .f32⟩
  | .hbm, ⟨22, _⟩ => ⟨S3, .f32⟩
  | .hbm, ⟨23, _⟩ => ⟨S1048576x3, .f32⟩
  | .local _ .vmem, ⟨0, _⟩ => ⟨S8192x64, .f32⟩
  | .local _ .vmem, ⟨1, _⟩ => ⟨S8192x64, .f32⟩
  | .local _ .vmem, ⟨2, _⟩ => ⟨S64x24, .f32⟩
  | .local _ .vmem, ⟨3, _⟩ => ⟨S24, .f32⟩
  | .local _ .vmem, ⟨4, _⟩ => ⟨S24x16, .f32⟩
  | .local _ .vmem, ⟨5, _⟩ => ⟨S16, .f32⟩
  | .local _ .vmem, ⟨6, _⟩ => ⟨S64x12, .f32⟩
  | .local _ .vmem, ⟨7, _⟩ => ⟨S12, .f32⟩
  | .local _ .vmem, ⟨8, _⟩ => ⟨S12x2, .f32⟩
  | .local _ .vmem, ⟨9, _⟩ => ⟨S2, .f32⟩
  | .local _ .vmem, ⟨10, _⟩ => ⟨S16x12, .f32⟩
  | .local _ .vmem, ⟨11, _⟩ => ⟨S12, .f32⟩
  | .local _ .vmem, ⟨12, _⟩ => ⟨S12x3, .f32⟩
  | .local _ .vmem, ⟨13, _⟩ => ⟨S3, .f32⟩
  | .local _ .vmem, ⟨14, _⟩ => ⟨S16x12, .f32⟩
  | .local _ .vmem, ⟨15, _⟩ => ⟨S12, .f32⟩
  | .local _ .vmem, ⟨16, _⟩ => ⟨S12x3, .f32⟩
  | .local _ .vmem, ⟨17, _⟩ => ⟨S3, .f32⟩
  | .local _ .vmem, ⟨18, _⟩ => ⟨S64x3, .f32⟩
  | .local _ .vmem, ⟨19, _⟩ => ⟨S3, .f32⟩
  | .local _ .vmem, ⟨20, _⟩ => ⟨S64, .f32⟩
  | .local _ .vmem, ⟨21, _⟩ => ⟨S64, .f32⟩
  | .local _ .vmem, ⟨22, _⟩ => ⟨S3, .f32⟩
  | .local _ .vmem, ⟨23, _⟩ => ⟨S3, .f32⟩
  | .local _ .vmem, ⟨24, _⟩ => ⟨S8192x3, .f32⟩
  | .local _ .vmem, ⟨25, _⟩ => ⟨S8192x3, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x12 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S12 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S12x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S3 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S8192x3 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  inb_S64_S64_0 : ∀ a, (![0] : Fin 1 → Nat) a + S64.size a ≤ S64.size a
  h_S64 : 0 < S64.numel
  inb_S3_S3_0 : ∀ a, (![0] : Fin 1 → Nat) a + S3.size a ≤ S3.size a
  h_S3 : 0 < S3.numel
  inb_S64x24_S64x24_0_0 : ∀ a, (![0, 0] : Fin 2 → Nat) a + S64x24.size a ≤ S64x24.size a
  h_S64x24 : 0 < S64x24.numel
  bitsLt_bf16_f32 : FTy.bits .bf16 < FTy.bits .f32
  inb_S24_S24_0 : ∀ a, (![0] : Fin 1 → Nat) a + S24.size a ≤ S24.size a
  h_S24 : 0 < S24.numel
  inb_S24x16_S24x16_0_0 : ∀ a, (![0, 0] : Fin 2 → Nat) a + S24x16.size a ≤ S24x16.size a
  h_S24x16 : 0 < S24x16.numel
  inb_S16_S16_0 : ∀ a, (![0] : Fin 1 → Nat) a + S16.size a ≤ S16.size a
  h_S16 : 0 < S16.numel
  inb_S64x12_S64x12_0_0 : ∀ a, (![0, 0] : Fin 2 → Nat) a + S64x12.size a ≤ S64x12.size a
  h_S64x12 : 0 < S64x12.numel
  inb_S12_S12_0 : ∀ a, (![0] : Fin 1 → Nat) a + S12.size a ≤ S12.size a
  h_S12 : 0 < S12.numel
  inb_S12x2_S12x2_0_0 : ∀ a, (![0, 0] : Fin 2 → Nat) a + S12x2.size a ≤ S12x2.size a
  h_S12x2 : 0 < S12x2.numel
  inb_S2_S2_0 : ∀ a, (![0] : Fin 1 → Nat) a + S2.size a ≤ S2.size a
  h_S2 : 0 < S2.numel
  inb_S16x12_S16x12_0_0 : ∀ a, (![0, 0] : Fin 2 → Nat) a + S16x12.size a ≤ S16x12.size a
  h_S16x12 : 0 < S16x12.numel
  inb_S12x3_S12x3_0_0 : ∀ a, (![0, 0] : Fin 2 → Nat) a + S12x3.size a ≤ S12x3.size a
  h_S12x3 : 0 < S12x3.numel
  inb_S64x3_S64x3_0_0 : ∀ a, (![0, 0] : Fin 2 → Nat) a + S64x3.size a ≤ S64x3.size a
  h_S64x3 : 0 < S64x3.numel
  inb_S8192x64_S2048x64_0_0 : ∀ a, (![0, 0] : Fin 2 → Nat) a + S2048x64.size a ≤ S8192x64.size a
  h_S2048x64 : 0 < S2048x64.numel
  shapeCasts_S64_S1x64 : S64.ShapeCasts S1x64
  broadcasts_S1x64_S2048x64 : S1x64.Broadcasts S2048x64
  shapeCasts_S24_S1x24 : S24.ShapeCasts S1x24
  broadcasts_S1x24_S2048x24 : S1x24.Broadcasts S2048x24
  shapeCasts_S16_S1x16 : S16.ShapeCasts S1x16
  broadcasts_S1x16_S2048x16 : S1x16.Broadcasts S2048x16
  shapeCasts_S12_S1x12 : S12.ShapeCasts S1x12
  broadcasts_S1x12_S2048x12 : S1x12.Broadcasts S2048x12
  shapeCasts_S2_S1x2 : S2.ShapeCasts S1x2
  broadcasts_S1x2_S2048x2 : S1x2.Broadcasts S2048x2
  reduces_S2048x2_S2048 : S2048x2.Reduces [1] S2048
  shapeCasts_S2048_S2048x1 : S2048.ShapeCasts S2048x1
  broadcasts_S2048x1_S2048x2 : S2048x1.Broadcasts S2048x2
  shapeCasts_S3_S1x3 : S3.ShapeCasts S1x3
  broadcasts_S1x3_S2048x3 : S1x3.Broadcasts S2048x3
  slices_S2048x2_o0_0_S2048x1 : S2048x2.Slices ![0, 0] S2048x1
  broadcasts_S2048x1_S2048x3 : S2048x1.Broadcasts S2048x3
  slices_S2048x2_o0_1_S2048x1 : S2048x2.Slices ![0, 1] S2048x1
  inb_S8192x3_S2048x3_0_0 : ∀ a, (![0, 0] : Fin 2 → Nat) a + S2048x3.size a ≤ S8192x3.size a
  h_S2048x3 : 0 < S2048x3.numel
  inb_S8192x64_S2048x64_2048_0 : ∀ a, (![2048, 0] : Fin 2 → Nat) a + S2048x64.size a ≤ S8192x64.size a
  inb_S8192x3_S2048x3_2048_0 : ∀ a, (![2048, 0] : Fin 2 → Nat) a + S2048x3.size a ≤ S8192x3.size a
  inb_S8192x64_S2048x64_4096_0 : ∀ a, (![4096, 0] : Fin 2 → Nat) a + S2048x64.size a ≤ S8192x64.size a
  inb_S8192x3_S2048x3_4096_0 : ∀ a, (![4096, 0] : Fin 2 → Nat) a + S2048x3.size a ≤ S8192x3.size a
  inb_S8192x64_S2048x64_6144_0 : ∀ a, (![6144, 0] : Fin 2 → Nat) a + S2048x64.size a ≤ S8192x64.size a
  inb_S8192x3_S2048x3_6144_0 : ∀ a, (![6144, 0] : Fin 2 → Nat) a + S2048x3.size a ≤ S8192x3.size a
  dot_S2048x64_S64x24_S2048x24_1_0_0_1_n_n_wf : DotDims.WF S2048x64 S64x24 S2048x24 [1] [0] [0] [1] [] []
  dot_S2048x24_S24x16_S2048x16_1_0_0_1_n_n_wf : DotDims.WF S2048x24 S24x16 S2048x16 [1] [0] [0] [1] [] []
  dot_S2048x64_S64x12_S2048x12_1_0_0_1_n_n_wf : DotDims.WF S2048x64 S64x12 S2048x12 [1] [0] [0] [1] [] []
  dot_S2048x12_S12x2_S2048x2_1_0_0_1_n_n_wf : DotDims.WF S2048x12 S12x2 S2048x2 [1] [0] [0] [1] [] []
  dot_S2048x16_S16x12_S2048x12_1_0_0_1_n_n_wf : DotDims.WF S2048x16 S16x12 S2048x12 [1] [0] [0] [1] [] []
  dot_S2048x12_S12x3_S2048x3_1_0_0_1_n_n_wf : DotDims.WF S2048x12 S12x3 S2048x3 [1] [0] [0] [1] [] []
  dot_S2048x64_S64x3_S2048x3_1_0_0_1_n_n_wf : DotDims.WF S2048x64 S64x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x24.size a ≤ S64x24.size a
  hwx0_1 : ∀ i : grid0.Coords, EltTy.bits .f32 = 32 ∨ (Rect.block (s := S64x24) S64x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x16.size a ≤ S24x16.size a
  hwx0_3 : ∀ i : grid0.Coords, EltTy.bits .f32 = 32 ∨ (Rect.block (s := S24x16) S24x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x12.size a ≤ S64x12.size a
  hwx0_5 : ∀ i : grid0.Coords, EltTy.bits .f32 = 32 ∨ (Rect.block (s := S64x12) S64x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x2.size a ≤ S12x2.size a
  hwx0_7 : ∀ i : grid0.Coords, EltTy.bits .f32 = 32 ∨ (Rect.block (s := S12x2) S12x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x12.size a ≤ S16x12.size a
  hwx0_9 : ∀ i : grid0.Coords, EltTy.bits .f32 = 32 ∨ (Rect.block (s := S16x12) S16x12.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12.size a ≤ S12.size a
  hwx0_10 : ∀ i : grid0.Coords, EltTy.bits .f32 = 32 ∨ (Rect.block (s := S12) S12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S12x3.size a ≤ S12x3.size a
  hwx0_11 : ∀ i : grid0.Coords, EltTy.bits .f32 = 32 ∨ (Rect.block (s := S12x3) S12x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3.size a ≤ S3.size a
  hwx0_12 : ∀ i : grid0.Coords, EltTy.bits .f32 = 32 ∨ (Rect.block (s := S3) S3.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x12.size a ≤ S16x12.size a
  hwx0_13 : ∀ i : grid0.Coords, EltTy.bits .f32 = 32 ∨ (Rect.block (s := S16x12) S16x12.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S12.size a ≤ S12.size a
  hwx0_14 : ∀ i : grid0.Coords, EltTy.bits .f32 = 32 ∨ (Rect.block (s := S12) S12.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S12x3.size a ≤ S12x3.size a
  hwx0_15 : ∀ i : grid0.Coords, EltTy.bits .f32 = 32 ∨ (Rect.block (s := S12x3) S12x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3.size a ≤ S3.size a
  hwx0_16 : ∀ i : grid0.Coords, EltTy.bits .f32 = 32 ∨ (Rect.block (s := S3) S3.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x3.size a ≤ S64x3.size a
  hwx0_17 : ∀ i : grid0.Coords, EltTy.bits .f32 = 32 ∨ (Rect.block (s := S64x3) S64x3.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3.size a ≤ S3.size a
  hwx0_18 : ∀ i : grid0.Coords, EltTy.bits .f32 = 32 ∨ (Rect.block (s := S3) S3.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64.size a ≤ S64.size a
  hwx0_20 : ∀ i : grid0.Coords, EltTy.bits .f32 = 32 ∨ (Rect.block (s := S64) S64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S3.size a ≤ S3.size a
  hwx0_21 : ∀ i : grid0.Coords, EltTy.bits .f32 = 32 ∨ (Rect.block (s := S3) S3.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S3.size a ≤ S3.size a
  hwx0_22 : ∀ i : grid0.Coords, EltTy.bits .f32 = 32 ∨ (Rect.block (s := S3) S3.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S8192x3.size a ≤ S1048576x3.size a
  hwx0_23 : ∀ i : grid0.Coords, EltTy.bits .f32 = 32 ∨ (Rect.block (s := S1048576x3) S8192x3.size (cc0_transform_23 i) (hinb0_23 i)).WholeWords (EltTy.packing .f32)

variable [Facts₀]

def dot_S2048x64_S64x24_S2048x24_1_0_0_1_n_n : DotDims S2048x64 S64x24 S2048x24 where
  lhsContracting := [1]
  rhsContracting := [0]
  lhsNonContracting := [0]
  rhsNonContracting := [1]
  lhsBatch := []
  rhsBatch := []
  wf := dot_S2048x64_S64x24_S2048x24_1_0_0_1_n_n_wf
def dot_S2048x24_S24x16_S2048x16_1_0_0_1_n_n : DotDims S2048x24 S24x16 S2048x16 where
  lhsContracting := [1]
  rhsContracting := [0]
  lhsNonContracting := [0]
  rhsNonContracting := [1]
  lhsBatch := []
  rhsBatch := []
  wf := dot_S2048x24_S24x16_S2048x16_1_0_0_1_n_n_wf
def dot_S2048x64_S64x12_S2048x12_1_0_0_1_n_n : DotDims S2048x64 S64x12 S2048x12 where
  lhsContracting := [1]
  rhsContracting := [0]
  lhsNonContracting := [0]
  rhsNonContracting := [1]
  lhsBatch := []
  rhsBatch := []
  wf := dot_S2048x64_S64x12_S2048x12_1_0_0_1_n_n_wf
def dot_S2048x12_S12x2_S2048x2_1_0_0_1_n_n : DotDims S2048x12 S12x2 S2048x2 where
  lhsContracting := [1]
  rhsContracting := [0]
  lhsNonContracting := [0]
  rhsNonContracting := [1]
  lhsBatch := []
  rhsBatch := []
  wf := dot_S2048x12_S12x2_S2048x2_1_0_0_1_n_n_wf
def dot_S2048x16_S16x12_S2048x12_1_0_0_1_n_n : DotDims S2048x16 S16x12 S2048x12 where
  lhsContracting := [1]
  rhsContracting := [0]
  lhsNonContracting := [0]
  rhsNonContracting := [1]
  lhsBatch := []
  rhsBatch := []
  wf := dot_S2048x16_S16x12_S2048x12_1_0_0_1_n_n_wf
def dot_S2048x12_S12x3_S2048x3_1_0_0_1_n_n : DotDims S2048x12 S12x3 S2048x3 where
  lhsContracting := [1]
  rhsContracting := [0]
  lhsNonContracting := [0]
  rhsNonContracting := [1]
  lhsBatch := []
  rhsBatch := []
  wf := dot_S2048x12_S12x3_S2048x3_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S12x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S12x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S16x12.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S12.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S12x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x3.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S3.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S3.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S3.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0) S8192x3.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x24 : Shape := ⟨2, ![64, 24]⟩
abbrev S24 : Shape := ⟨1, ![24]⟩
abbrev S24x16 : Shape := ⟨2, ![24, 16]⟩
abbrev S16 : Shape := ⟨1, ![16]⟩
abbrev S64x12 : Shape := ⟨2, ![64, 12]⟩
abbrev S12 : Shape := ⟨1, ![12]⟩
abbrev S12x2 : Shape := ⟨2, ![12, 2]⟩
abbrev S2 : Shape := ⟨1, ![2]⟩
abbrev S16x12 : Shape := ⟨2, ![16, 12]⟩
abbrev S12x3 : Shape := ⟨2, ![12, 3]⟩
abbrev S3 : Shape := ⟨1, ![3]⟩
abbrev S64x3 : Shape := ⟨2, ![64, 3]⟩
abbrev S64 : Shape := ⟨1, ![64]⟩
abbrev S1x64 : Shape := ⟨2, ![1, 64]⟩
abbrev S_ : Shape := ⟨0, ![]⟩
abbrev S1048576x24 : Shape := ⟨2, ![1048576, 24]⟩
abbrev S1x24 : Shape := ⟨2, ![1, 24]⟩
abbrev S1048576x16 : Shape := ⟨2, ![1048576, 16]⟩
abbrev S1x16 : Shape := ⟨2, ![1, 16]⟩
abbrev S1048576x12 : Shape := ⟨2, ![1048576, 12]⟩
abbrev S1x12 : Shape := ⟨2, ![1, 12]⟩
abbrev S1048576x2 : Shape := ⟨2, ![1048576, 2]⟩
abbrev S1x2 : Shape := ⟨2, ![1, 2]⟩
abbrev S1048576 : Shape := ⟨1, ![1048576]⟩
abbrev S1048576x1 : Shape := ⟨2, ![1048576, 1]⟩
abbrev S1048576x3 : Shape := ⟨2, ![1048576, 3]⟩
abbrev S1x3 : Shape := ⟨2, ![1, 3]⟩

abbrev nBuf : Space → Nat
  | .hbm => 104
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x24, .f32⟩
  | .hbm, ⟨2, _⟩ => ⟨S24, .f32⟩
  | .hbm, ⟨3, _⟩ => ⟨S24x16, .f32⟩
  | .hbm, ⟨4, _⟩ => ⟨S16, .f32⟩
  | .hbm, ⟨5, _⟩ => ⟨S64x12, .f32⟩
  | .hbm, ⟨6, _⟩ => ⟨S12, .f32⟩
  | .hbm, ⟨7, _⟩ => ⟨S12x2, .f32⟩
  | .hbm, ⟨8, _⟩ => ⟨S2, .f32⟩
  | .hbm, ⟨9, _⟩ => ⟨S16x12, .f32⟩
  | .hbm, ⟨10, _⟩ => ⟨S12, .f32⟩
  | .hbm, ⟨11, _⟩ => ⟨S12x3, .f32⟩
  | .hbm, ⟨12, _⟩ => ⟨S3, .f32⟩
  | .hbm, ⟨13, _⟩ => ⟨S16x12, .f32⟩
  | .hbm, ⟨14, _⟩ => ⟨S12, .f32⟩
  | .hbm, ⟨15, _⟩ => ⟨S12x3, .f32⟩
  | .hbm, ⟨16, _⟩ => ⟨S3, .f32⟩
  | .hbm, ⟨17, _⟩ => ⟨S64x3, .f32⟩
  | .hbm, ⟨18, _⟩ => ⟨S3, .f32⟩
  | .hbm, ⟨19, _⟩ => ⟨S64, .f32⟩
  | .hbm, ⟨20, _⟩ => ⟨S64, .f32⟩
  | .hbm, ⟨21, _⟩ => ⟨S3, .f32⟩
  | .hbm, ⟨22, _⟩ => ⟨S3, .f32⟩
  | .hbm, ⟨23, _⟩ => ⟨S1x64, .f32⟩
  | .hbm, ⟨24, _⟩ => ⟨S1048576x64, .f32⟩
  | .hbm, ⟨25, _⟩ => ⟨S1048576x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S1048576x64, .f32⟩
  | .hbm, ⟨31, _⟩ => ⟨S1048576x64, .f32⟩
  | .hbm, ⟨32, _⟩ => ⟨S1048576x24, .f32⟩
  | .hbm, ⟨33, _⟩ => ⟨S1x24, .f32⟩
  | .hbm, ⟨34, _⟩ => ⟨S1048576x24, .f32⟩
  | .hbm, ⟨35, _⟩ => ⟨S1048576x24, .f32⟩
  | .hbm, ⟨36, _⟩ => ⟨S1048576x24, .f32⟩
  | .hbm, ⟨37, _⟩ => ⟨S1048576x16, .f32⟩
  | .hbm, ⟨38, _⟩ => ⟨S1x16, .f32⟩
  | .hbm, ⟨39, _⟩ => ⟨S1048576x16, .f32⟩
  | .hbm, ⟨40, _⟩ => ⟨S1048576x16, .f32⟩
  | .hbm, ⟨41, _⟩ => ⟨S1048576x16, .f32⟩
  | .hbm, ⟨42, _⟩ => ⟨S1048576x12, .f32⟩
  | .hbm, ⟨43, _⟩ => ⟨S1x12, .f32⟩
  | .hbm, ⟨44, _⟩ => ⟨S1048576x12, .f32⟩
  | .hbm, ⟨45, _⟩ => ⟨S1048576x12, .f32⟩
  | .hbm, ⟨46, _⟩ => ⟨S1048576x12, .f32⟩
  | .hbm, ⟨47, _⟩ => ⟨S1048576x2, .f32⟩
  | .hbm, ⟨48, _⟩ => ⟨S1x2, .f32⟩
  | .hbm, ⟨49, _⟩ => ⟨S1048576x2, .f32⟩
  | .hbm, ⟨50, _⟩ => ⟨S1048576x2, .f32⟩
  | .hbm, ⟨51, _⟩ => ⟨S_, .f32⟩
  | .hbm, ⟨52, _⟩ => ⟨S1048576, .f32⟩
  | .hbm, ⟨53, _⟩ => ⟨S_, .f32⟩
  | .hbm, ⟨54, _⟩ => ⟨S1048576, .f32⟩
  | .hbm, ⟨55, _⟩ => ⟨S1048576, .f32⟩
  | .hbm, ⟨56, _⟩ => ⟨S1048576x1, .f32⟩
  | .hbm, ⟨57, _⟩ => ⟨S1048576x2, .f32⟩
  | .hbm, ⟨58, _⟩ => ⟨S1048576x2, .f32⟩
  | .hbm, ⟨59, _⟩ => ⟨S1048576x2, .f32⟩
  | .hbm, ⟨60, _⟩ => ⟨S_, .f32⟩
  | .hbm, ⟨61, _⟩ => ⟨S1048576, .f32⟩
  | .hbm, ⟨62, _⟩ => ⟨S1048576x1, .f32⟩
  | .hbm, ⟨63, _⟩ => ⟨S1048576x2, .f32⟩
  | .hbm, ⟨64, _⟩ => ⟨S1048576x2, .f32⟩
  | .hbm, ⟨65, _⟩ => ⟨S1048576x12, .f32⟩
  | .hbm, ⟨66, _⟩ => ⟨S1x12, .f32⟩
  | .hbm, ⟨67, _⟩ => ⟨S1048576x12, .f32⟩
  | .hbm, ⟨68, _⟩ => ⟨S1048576x12, .f32⟩
  | .hbm, ⟨69, _⟩ => ⟨S1048576x12, .f32⟩
  | .hbm, ⟨70, _⟩ => ⟨S1048576x3, .f32⟩
  | .hbm, ⟨71, _⟩ => ⟨S1x3, .f32⟩
  | .hbm, ⟨72, _⟩ => ⟨S1048576x3, .f32⟩
  | .hbm, ⟨73, _⟩ => ⟨S1048576x3, .f32⟩
  | .hbm, ⟨74, _⟩ => ⟨S1048576x12, .f32⟩
  | .hbm, ⟨75, _⟩ => ⟨S1x12, .f32⟩
  | .hbm, ⟨76, _⟩ => ⟨S1048576x12, .f32⟩
  | .hbm, ⟨77, _⟩ => ⟨S1048576x12, .f32⟩
  | .hbm, ⟨78, _⟩ => ⟨S1048576x12, .f32⟩
  | .hbm, ⟨79, _⟩ => ⟨S1048576x3, .f32⟩
  | .hbm, ⟨80, _⟩ => ⟨S1x3, .f32⟩
  | .hbm, ⟨81, _⟩ => ⟨S1048576x3, .f32⟩
  | .hbm, ⟨82, _⟩ => ⟨S1048576x3, .f32⟩
  | .hbm, ⟨83, _⟩ => ⟨S1048576x1, .f32⟩
  | .hbm, ⟨84, _⟩ => ⟨S1048576x3, .f32⟩
  | .hbm, ⟨85, _⟩ => ⟨S1048576x3, .f32⟩
  | .hbm, ⟨86, _⟩ => ⟨S1048576x1, .f32⟩
  | .hbm, ⟨87, _⟩ => ⟨S1048576x3, .f32⟩
  | .hbm, ⟨88, _⟩ => ⟨S1048576x3, .f32⟩
  | .hbm, ⟨89, _⟩ => ⟨S1048576x3, .f32⟩
  | .hbm, ⟨90, _⟩ => ⟨S1048576x3, .f32⟩
  | .hbm, ⟨91, _⟩ => ⟨S1x3, .f32⟩
  | .hbm, ⟨92, _⟩ => ⟨S1048576x3, .f32⟩
  | .hbm, ⟨93, _⟩ => ⟨S1048576x3, .f32⟩
  | .hbm, ⟨94, _⟩ => ⟨S_, .f32⟩
  | .hbm, ⟨95, _⟩ => ⟨S1048576x3, .f32⟩
  | .hbm, ⟨96, _⟩ => ⟨S1048576x3, .f32⟩
  | .hbm, ⟨97, _⟩ => ⟨S1048576x3, .f32⟩
  | .hbm, ⟨98, _⟩ => ⟨S1x3, .f32⟩
  | .hbm, ⟨99, _⟩ => ⟨S1048576x3, .f32⟩
  | .hbm, ⟨100, _⟩ => ⟨S1048576x3, .f32⟩
  | .hbm, ⟨101, _⟩ => ⟨S1x3, .f32⟩
  | .hbm, ⟨102, _⟩ => ⟨S1048576x3, .f32⟩
  | .hbm, ⟨103, _⟩ => ⟨S1048576x3, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_3 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S64 : S_.BroadcastsInDim S64 (![] : Fin 0 → Fin S64.rank)
  bcast_S24_S1x24_1 : S24.BroadcastsInDim S1x24 (![1] : Fin 1 → Fin S1x24.rank)
  bcast_S1x24_S1048576x24_0_1 : S1x24.BroadcastsInDim S1048576x24 (![0, 1] : Fin 2 → Fin S1048576x24.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  reducesTo_S1048576x2_S1048576_d1 : S1048576x2.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x2_0_1 : S1048576x1.BroadcastsInDim S1048576x2 (![0, 1] : Fin 2 → Fin S1048576x2.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  slices_S1048576x2_S1048576x1_0_0 : S1048576x2.Slices ![0, 0] S1048576x1
  bcast_S1048576x1_S1048576x3_0_1 : S1048576x1.BroadcastsInDim S1048576x3 (![0, 1] : Fin 2 → Fin S1048576x3.rank)
  slices_S1048576x2_S1048576x1_0_1 : S1048576x2.Slices ![0, 1] S1048576x1
  bcast_S_S1048576x3 : S_.BroadcastsInDim S1048576x3 (![] : Fin 0 → Fin S1048576x3.rank)
  dot_S1048576x64_S64x24_S1048576x24_1_0_0_1_n_n_wf : DotDims.WF S1048576x64 S64x24 S1048576x24 [1] [0] [0] [1] [] []
  dot_S1048576x24_S24x16_S1048576x16_1_0_0_1_n_n_wf : DotDims.WF S1048576x24 S24x16 S1048576x16 [1] [0] [0] [1] [] []
  dot_S1048576x64_S64x12_S1048576x12_1_0_0_1_n_n_wf : DotDims.WF S1048576x64 S64x12 S1048576x12 [1] [0] [0] [1] [] []
  dot_S1048576x12_S12x2_S1048576x2_1_0_0_1_n_n_wf : DotDims.WF S1048576x12 S12x2 S1048576x2 [1] [0] [0] [1] [] []
  dot_S1048576x16_S16x12_S1048576x12_1_0_0_1_n_n_wf : DotDims.WF S1048576x16 S16x12 S1048576x12 [1] [0] [0] [1] [] []
  dot_S1048576x12_S12x3_S1048576x3_1_0_0_1_n_n_wf : DotDims.WF S1048576x12 S12x3 S1048576x3 [1] [0] [0] [1] [] []
  dot_S1048576x64_S64x3_S1048576x3_1_0_0_1_n_n_wf : DotDims.WF S1048576x64 S64x3 S1048576x3 [1] [0] [0] [1] [] []

variable [Facts₀]

def dot_S1048576x64_S64x24_S1048576x24_1_0_0_1_n_n : DotDims S1048576x64 S64x24 S1048576x24 where
  lhsContracting := [1]
  rhsContracting := [0]
  lhsNonContracting := [0]
  rhsNonContracting := [1]
  lhsBatch := []
  rhsBatch := []
  wf := dot_S1048576x64_S64x24_S1048576x24_1_0_0_1_n_n_wf
def dot_S1048576x24_S24x16_S1048576x16_1_0_0_1_n_n : DotDims S1048576x24 S24x16 S1048576x16 where
  lhsContracting := [1]
  rhsContracting := [0]
  lhsNonContracting := [0]
  rhsNonContracting := [1]
  lhsBatch := []
  rhsBatch := []
  wf := dot_S1048576x24_S24x16_S1048576x16_1_0_0_1_n_n_wf
def dot_S1048576x64_S64x12_S1048576x12_1_0_0_1_n_n : DotDims S1048576x64 S64x12 S1048576x12 where
  lhsContracting := [1]
  rhsContracting := [0]
  lhsNonContracting := [0]
  rhsNonContracting := [1]
  lhsBatch := []
  rhsBatch := []
  wf := dot_S1048576x64_S64x12_S1048576x12_1_0_0_1_n_n_wf
def dot_S1048576x12_S12x2_S1048576x2_1_0_0_1_n_n : DotDims S1048576x12 S12x2 S1048576x2 where
  lhsContracting := [1]
  rhsContracting := [0]
  lhsNonContracting := [0]
  rhsNonContracting := [1]
  lhsBatch := []
  rhsBatch := []
  wf := dot_S1048576x12_S12x2_S1048576x2_1_0_0_1_n_n_wf
def dot_S1048576x16_S16x12_S1048576x12_1_0_0_1_n_n : DotDims S1048576x16 S16x12 S1048576x12 where
  lhsContracting := [1]
  rhsContracting := [0]
  lhsNonContracting := [0]
  rhsNonContracting := [1]
  lhsBatch := []
  rhsBatch := []
  wf := dot_S1048576x16_S16x12_S1048576x12_1_0_0_1_n_n_wf
def dot_S1048576x12_S12x3_S1048576x3_1_0_0_1_n_n : DotDims S1048576x12 S12x3 S1048576x3 where
  lhsContracting := [1]
  rhsContracting := [0]
  lhsNonContracting := [0]
  rhsNonContracting := [1]
  lhsBatch := []
  rhsBatch := []
  wf := dot_S1048576x12_S12x3_S1048576x3_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.Mixture.lean ====
/-
  The function both programs compute, one row at a time.

  A row `x` of 64 numbers is centred and scaled, `xn k = (x k - mean k) / max (std k) ε`. A dense layer sends a row `a`
  to `j ↦ Σ_k a k · W (k, j) + b j`. The backbone is two dense layers, each followed by tanh; the gate is a dense layer,
  tanh, a dense layer to two logits and their softmax (each logit less the larger of the two, exponentiated, over the sum
  of the two exponentials); each of two experts is a dense layer, tanh, a dense layer on the backbone's output; a skip
  path is one dense layer on `xn`. The result is the gate-weighted sum of the experts plus 0.35 times the skip path,
  scaled and shifted per output column. Everything is on the extended reals, every operation the exact one, the
  constants the binary values both programs print.
-/
import Idealize.ShloMosaic.PureOps.Ideal
import Idealize.ShloMosaic.Lib.ValueIdx

noncomputable section

namespace Cert.Mixture

open Idealize.ShloMosaic Idealize.ShloMosaic.ValueIdx
open scoped BigOperators

/-- An `[a, b]` array and an `[a]` array of extended reals. -/
abbrev Mat (a b : ℕ) : Type := (⟨2, ![a, b]⟩ : Shape).Idx → EReal
abbrev Row (a : ℕ) : Type := (⟨1, ![a]⟩ : Shape).Idx → EReal

/-- The floor under the scale, the start of the running maximum, and the skip path's weight, as printed. -/
abbrev floorStd : EReal := Ideal.ofBits .f32 0x358637BD#32
abbrev negInf : EReal := Ideal.ofBits .f32 0xFF800000#32
abbrev skipWeight : EReal := Ideal.ofBits .f32 0x3EB33333#32

/-- The centred, scaled row. -/
def normed (mean std : Row 64) (x : Fin 64 → EReal) : Fin 64 → EReal :=
  fun k => Ideal.div (x k - mean (ix1 k)) (max (std (ix1 k)) floorStd)

/-- A dense layer on a row. -/
def dense {K N : ℕ} (W : Mat K N) (b : Row N) (a : Fin K → EReal) : Fin N → EReal :=
  fun j => (∑ k : Fin K, a k * W (ix2 k j)) + b (ix1 j)

/-- tanh of every entry. -/
def act {N : ℕ} (a : Fin N → EReal) : Fin N → EReal := fun j => Ideal.tanh (a j)

/-- The larger of the two logits (from −∞, twice over, as both programs take it). -/
def top (l : Fin 2 → EReal) : EReal := max negInf ((Finset.univ : Finset (Fin 2)).fold max negInf l)

/-- The softmax of two logits. -/
def soft (l : Fin 2 → EReal) : Fin 2 → EReal :=
  fun j => Ideal.div (Ideal.exp (l j - top l)) (∑ k : Fin 2, Ideal.exp (l k - top l))

/-- The arrays other than the data. -/
structure Weights where
  bbW1 : Mat 64 24
  bbB1 : Row 24
  bbW2 : Mat 24 16
  bbB2 : Row 16
  gW1 : Mat 64 12
  gB1 : Row 12
  gW2 : Mat 12 2
  gB2 : Row 2
  e1W1 : Mat 16 12
  e1B1 : Row 12
  e1W2 : Mat 12 3
  e1B2 : Row 3
  e2W1 : Mat 16 12
  e2B1 : Row 12
  e2W2 : Mat 12 3
  e2B2 : Row 3
  skW : Mat 64 3
  skB : Row 3
  xMean : Row 64
  xStd : Row 64
  yMean : Row 3
  yStd : Row 3

/-- The backbone's output, the gate's two weights, the two experts and the skip path, of a row. -/
def hidden (w : Weights) (x : Fin 64 → EReal) : Fin 16 → EReal :=
  act (dense w.bbW2 w.bbB2 (act (dense w.bbW1 w.bbB1 (normed w.xMean w.xStd x))))
def gate (w : Weights) (x : Fin 64 → EReal) : Fin 2 → EReal :=
  soft (dense w.gW2 w.gB2 (act (dense w.gW1 w.gB1 (normed w.xMean w.xStd x))))
def expert1 (w : Weights) (x : Fin 64 → EReal) : Fin 3 → EReal :=
  dense w.e1W2 w.e1B2 (act (dense w.e1W1 w.e1B1 (hidden w x)))
def expert2 (w : Weights) (x : Fin 64 → EReal) : Fin 3 → EReal :=
  dense w.e2W2 w.e2B2 (act (dense w.e2W1 w.e2B1 (hidden w x)))
def skip (w : Weights) (x : Fin 64 → EReal) : Fin 3 → EReal :=
  dense w.skW w.skB (normed w.xMean w.xStd x)

/-- The output row. -/
def out (w : Weights) (x : Fin 64 → EReal) : Fin 3 → EReal :=
  fun q => ((gate w x 0 * expert1 w x q + gate w x 1 * expert2 w x q) + skipWeight * skip w x q) * w.yStd (ix1 q)
    + w.yMean (ix1 q)

/-- The whole result: row `i 0` of the data through `out`, column `i 1`. -/
def result {n : ℕ} (w : Weights) (x : Mat n 64) : Mat n 3 :=
  fun i => out w (fun k => x (ix2 (i 0) k)) (i 1)

end Cert.Mixture

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.KernelBand.lean ====
/-
  One band of 2048 rows through the kernel's operations, read at an entry.

  The kernel works on a block of 8192 rows in four bands of 2048. On a band `xs`, entry `(p, q)` of what it stores
  depends on row `p` of the band alone: every matrix product contracts over the row's entries, every bias is laid under
  every row, the softmax's maximum and sum run along the row, and the gate's two columns are laid beside the experts'
  columns. So entry `(p, q)` is the row function of `Mixture` at row `p`, column `q`. A change of float format is the
  identity on the extended reals, and a product into a zero accumulator is the plain sum.
-/
import proofs.«152233_j75230647156948_1_alg».proof.Proof.Gen.KernelIdeal.Skeleton
import proofs.«152233_j75230647156948_1_alg».proof.Proof.Mixture
import proofs.«152233_j75230647156948_1_alg».proof.Proof.LibDot
import proofs.«152233_j75230647156948_1_alg».proof.Proof.LibRowReduce
import proofs.«152233_j75230647156948_1_alg».proof.Proof.LibRowwise
import Idealize.ShloMosaic.Lib.ValueIdx
import Idealize.ShloMosaic.PureOps.Ideal.Laws

noncomputable section

namespace Cert.KernelIdeal.Band

open Cert.KernelIdeal Cert.KernelIdeal.Gen Idealize.ShloMosaic Idealize.ShloMosaic.ValueIdx Cert.Mixture
open scoped BigOperators

/-! ## The operations that are not entry by entry -/

/-- The index facts of a plain product's dimension numbers on the axes that are not contracted. -/
local macro "free_lhs" : tactic =>
  `(tactic| (intro j q; unfold DotDims.lhsIdx; rw [dif_neg (by decide), dif_pos (by decide)]; rfl))
local macro "free_rhs" : tactic =>
  `(tactic| (intro j q; unfold DotDims.rhsIdx; rw [dif_neg (by decide), dif_pos (by decide)]; rfl))

variable {φ₁ φ₂ : FTy}

theorem mm_64_24 (l : FVec Ideal S2048x64 φ₁) (r : FVec Ideal S64x24 φ₂) (p : Fin 2048) (q : Fin 24) :
    matmul dot_S2048x64_S64x24_S2048x24_1_0_0_1_n_n none l r (constant S2048x24 .f32 0x00000000#32) (ix2 p q)
      = ∑ i : Fin 64, l (ix2 p i) * r (ix2 i q) :=
  LibDot.matmul_zero_apply dot_S2048x64_S64x24_S2048x24_1_0_0_1_n_n rfl rfl (by free_lhs)
    (fun j q => DotDims.lhsIdx_val_of_single _ rfl j q) (fun j q => DotDims.rhsIdx_val_of_single _ rfl j q) (by free_rhs)
    none l r p q

theorem mm_24_16 (l : FVec Ideal S2048x24 φ₁) (r : FVec Ideal S24x16 φ₂) (p : Fin 2048) (q : Fin 16) :
    matmul dot_S2048x24_S24x16_S2048x16_1_0_0_1_n_n none l r (constant S2048x16 .f32 0x00000000#32) (ix2 p q)
      = ∑ i : Fin 24, l (ix2 p i) * r (ix2 i q) :=
  LibDot.matmul_zero_apply dot_S2048x24_S24x16_S2048x16_1_0_0_1_n_n rfl rfl (by free_lhs)
    (fun j q => DotDims.lhsIdx_val_of_single _ rfl j q) (fun j q => DotDims.rhsIdx_val_of_single _ rfl j q) (by free_rhs)
    none l r p q

theorem mm_64_12 (l : FVec Ideal S2048x64 φ₁) (r : FVec Ideal S64x12 φ₂) (p : Fin 2048) (q : Fin 12) :
    matmul dot_S2048x64_S64x12_S2048x12_1_0_0_1_n_n none l r (constant S2048x12 .f32 0x00000000#32) (ix2 p q)
      = ∑ i : Fin 64, l (ix2 p i) * r (ix2 i q) :=
  LibDot.matmul_zero_apply dot_S2048x64_S64x12_S2048x12_1_0_0_1_n_n rfl rfl (by free_lhs)
    (fun j q => DotDims.lhsIdx_val_of_single _ rfl j q) (fun j q => DotDims.rhsIdx_val_of_single _ rfl j q) (by free_rhs)
    none l r p q

theorem mm_12_2 (l : FVec Ideal S2048x12 φ₁) (r : FVec Ideal S12x2 φ₂) (p : Fin 2048) (q : Fin 2) :
    matmul dot_S2048x12_S12x2_S2048x2_1_0_0_1_n_n none l r (constant S2048x2 .f32 0x00000000#32) (ix2 p q)
      = ∑ i : Fin 12, l (ix2 p i) * r (ix2 i q) :=
  LibDot.matmul_zero_apply dot_S2048x12_S12x2_S2048x2_1_0_0_1_n_n rfl rfl (by free_lhs)
    (fun j q => DotDims.lhsIdx_val_of_single _ rfl j q) (fun j q => DotDims.rhsIdx_val_of_single _ rfl j q) (by free_rhs)
    none l r p q

theorem mm_16_12 (l : FVec Ideal S2048x16 φ₁) (r : FVec Ideal S16x12 φ₂) (p : Fin 2048) (q : Fin 12) :
    matmul dot_S2048x16_S16x12_S2048x12_1_0_0_1_n_n none l r (constant S2048x12 .f32 0x00000000#32) (ix2 p q)
      = ∑ i : Fin 16, l (ix2 p i) * r (ix2 i q) :=
  LibDot.matmul_zero_apply dot_S2048x16_S16x12_S2048x12_1_0_0_1_n_n rfl rfl (by free_lhs)
    (fun j q => DotDims.lhsIdx_val_of_single _ rfl j q) (fun j q => DotDims.rhsIdx_val_of_single _ rfl j q) (by free_rhs)
    none l r p q

theorem mm_12_3 (l : FVec Ideal S2048x12 φ₁) (r : FVec Ideal S12x3 φ₂) (p : Fin 2048) (q : Fin 3) :
    matmul dot_S2048x12_S12x3_S2048x3_1_0_0_1_n_n none l r (constant S2048x3 .f32 0x00000000#32) (ix2 p q)
      = ∑ i : Fin 12, l (ix2 p i) * r (ix2 i q) :=
  LibDot.matmul_zero_apply dot_S2048x12_S12x3_S2048x3_1_0_0_1_n_n rfl rfl (by free_lhs)
    (fun j q => DotDims.lhsIdx_val_of_single _ rfl j q) (fun j q => DotDims.rhsIdx_val_of_single _ rfl j q) (by free_rhs)
    none l r p q

theorem mm_64_3 (l : FVec Ideal S2048x64 φ₁) (r : FVec Ideal S64x3 φ₂) (p : Fin 2048) (q : Fin 3) :
    matmul dot_S2048x64_S64x3_S2048x3_1_0_0_1_n_n none l r (constant S2048x3 .f32 0x00000000#32) (ix2 p q)
      = ∑ i : Fin 64, l (ix2 p i) * r (ix2 i q) :=
  LibDot.matmul_zero_apply dot_S2048x64_S64x3_S2048x3_1_0_0_1_n_n rfl rfl (by free_lhs)
    (fun j q => DotDims.lhsIdx_val_of_single _ rfl j q) (fun j q => DotDims.rhsIdx_val_of_single _ rfl j q) (by free_rhs)
    none l r p q

/-- The maximum along a row of two, from −∞ (the side conditions typed as the program prints them). -/
theorem rowMax (src : FVec Ideal S2048x2 .f32) (hφ : FTy.f32 = FTy.f32 ∨ FTy.f32 = FTy.bf16)
    (hacc : (0xFF800000#32 : BitVec FTy.f32.bits) = 0xFF800000#32) (r : Fin 2048) :
    multiReduction .maximumf [1] S2048 src 0xFF800000#32 reduces_S2048x2_S2048 hφ hacc (ix1 r)
      = (Finset.univ : Finset (Fin 2)).fold max negInf fun k => src (ix2 r k) :=
  LibRowReduce.multiReduction_max_row src 0xFF800000#32 reduces_S2048x2_S2048 hφ hacc r

/-- The sum along a row of two. -/
theorem rowSum (src : FVec Ideal S2048x2 .f32) (hφ : FTy.f32 = FTy.f32 ∨ FTy.f32 = FTy.bf16)
    (hacc : (0x00000000#32 : BitVec FTy.f32.bits) = 0x00000000#32) (r : Fin 2048) :
    multiReduction .add [1] S2048 src 0x00000000#32 reduces_S2048x2_S2048 hφ hacc (ix1 r)
      = ∑ k : Fin 2, src (ix2 r k) :=
  LibRowReduce.multiReduction_add_row src 0x00000000#32 reduces_S2048x2_S2048 hφ hacc r

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-! ## The payloads of the first band, at an entry

The arguments are named as the payloads name them: `v0` the mean, `v1` the scale before its floor, the weight matrices
after their change of format, the biases as loaded, `xs` the band's rows. -/

theorem floored_apply (v1 : Vec Ideal S64 .f32) (k : Fin 64) : k0_pay2 v1 (ix1 k) = max (v1 (ix1 k)) floorStd := rfl

/-- The centred, scaled band. -/
theorem pay12_apply (v0 v1 : Vec Ideal S64 .f32) (xs : Vec Ideal S2048x64 .f32) (p : Fin 2048) (k : Fin 64) :
    k0_pay12 v0 (k0_pay2 v1) xs (ix2 p k) = normed v0 v1 (fun k => xs (ix2 p k)) k := by
  unfold k0_pay12 normed
  simp only [truncf_apply, divf_apply, subf_apply, LibRowwise.rowUnder_apply, floored_apply]

/-- The backbone's output on the band. -/
theorem pay13_apply (v0 : Vec Ideal S64 .f32) (v3 : FVec Ideal S64 .f32) (v7 : FVec Ideal S64x24 .bf16) (v8 : Vec Ideal S24 .f32)
    (v10 : FVec Ideal S24x16 .bf16) (v11 : Vec Ideal S16 .f32) (xs : Vec Ideal S2048x64 .f32) (p : Fin 2048) (j : Fin 16) :
    k0_pay13 v0 v3 v7 v8 v10 v11 xs (ix2 p j)
      = act (dense v10 v11 (act (dense v7 v8 fun k => k0_pay12 v0 v3 xs (ix2 p k)))) j := by
  unfold k0_pay13 act dense
  simp only [truncf_apply, tanh_apply, addf_apply, mm_24_16, mm_64_24, LibRowwise.rowUnder_apply]

theorem scalarBits {φ : FTy} (b : BitVec φ.bits) : Scalar.ofBits (F := Ideal) φ b = Ideal.ofBits φ b := rfl

/-- The exponentials of a two-column matrix of logits, each row less its maximum (the side conditions of the two
    reductions as variables, typed as the program prints them). -/
def shiftedExp (L : FVec Ideal S2048x2 .f32) (hφ : FTy.f32 = FTy.f32 ∨ FTy.f32 = FTy.bf16)
    (h3 : (0xFF800000#32 : BitVec FTy.f32.bits) = 0xFF800000#32) : FVec Ideal S2048x2 .f32 :=
  exp (subf L (broadcastTo S2048x2 (shapeCast S2048x1
    (maximumf (broadcast S2048 (Scalar.ofBits .f32 0xFF800000#32))
      (multiReduction .maximumf [1] S2048 L 0xFF800000#32 reduces_S2048x2_S2048 hφ h3))
    shapeCasts_S2048_S2048x1) broadcasts_S2048x1_S2048x2))

/-- The softmax along the rows of a two-column matrix, as the body computes it. -/
def softRows (L : FVec Ideal S2048x2 .f32) (hφ : FTy.f32 = FTy.f32 ∨ FTy.f32 = FTy.bf16)
    (h3 : (0xFF800000#32 : BitVec FTy.f32.bits) = 0xFF800000#32) (h4 : (0x00000000#32 : BitVec FTy.f32.bits) = 0x00000000#32) :
    FVec Ideal S2048x2 .f32 :=
  divf (shiftedExp L hφ h3) (broadcastTo S2048x2 (shapeCast S2048x1
    (multiReduction .add [1] S2048 (shiftedExp L hφ h3) 0x00000000#32 reduces_S2048x2_S2048 hφ h4)
    shapeCasts_S2048_S2048x1) broadcasts_S2048x1_S2048x2)

theorem shiftedExp_apply (L : FVec Ideal S2048x2 .f32) (hφ : FTy.f32 = FTy.f32 ∨ FTy.f32 = FTy.bf16)
    (h3 : (0xFF800000#32 : BitVec FTy.f32.bits) = 0xFF800000#32) (p : Fin 2048) (j : Fin 2) :
    shiftedExp L hφ h3 (ix2 p j) = Ideal.exp (L (ix2 p j) - top fun k => L (ix2 p k)) := by
  unfold shiftedExp top
  simp only [exp_apply, subf_apply, maximumf_apply, broadcast_apply, scalarBits, LibRowwise.columnBeside_apply]
  rw [rowMax L hφ h3 p]

theorem softRows_apply (L : FVec Ideal S2048x2 .f32) (hφ : FTy.f32 = FTy.f32 ∨ FTy.f32 = FTy.bf16)
    (h3 : (0xFF800000#32 : BitVec FTy.f32.bits) = 0xFF800000#32) (h4 : (0x00000000#32 : BitVec FTy.f32.bits) = 0x00000000#32)
    (p : Fin 2048) (j : Fin 2) :
    softRows L hφ h3 h4 (ix2 p j) = soft (fun k => L (ix2 p k)) j := by
  unfold softRows soft
  simp only [divf_apply, LibRowwise.columnBeside_apply]
  rw [rowSum (shiftedExp L hφ h3) hφ h4 p]
  simp only [shiftedExp_apply]

/-- The gate's two weights on the band: the softmax along each row of the two logits. -/
theorem pay14_apply (v0 : Vec Ideal S64 .f32) (v3 : FVec Ideal S64 .f32) (v13 : FVec Ideal S64x12 .bf16) (v14 : Vec Ideal S12 .f32)
    (v16 : FVec Ideal S12x2 .bf16) (v17 : Vec Ideal S2 .f32) (xs : Vec Ideal S2048x64 .f32) (p : Fin 2048) (j : Fin 2) :
    k0_pay14 v0 v3 v13 v14 v16 v17 xs (ix2 p j)
      = soft (dense v16 v17 (act (dense v13 v14 fun k => k0_pay12 v0 v3 xs (ix2 p k)))) j := by
  unfold k0_pay14
  refine (softRows_apply _ _ _ _ p j).trans ?_
  unfold act dense
  simp only [truncf_apply, tanh_apply, addf_apply, mm_12_2, mm_64_12, LibRowwise.rowUnder_apply]

/-- The first expert's hidden layer before its bias and tanh. -/
theorem pay15_apply (v0 : Vec Ideal S64 .f32) (v3 : FVec Ideal S64 .f32) (v7 : FVec Ideal S64x24 .bf16) (v8 : Vec Ideal S24 .f32)
    (v10 : FVec Ideal S24x16 .bf16) (v11 : Vec Ideal S16 .f32) (v19 : FVec Ideal S16x12 .bf16) (xs : Vec Ideal S2048x64 .f32)
    (p : Fin 2048) (j : Fin 12) :
    k0_pay15 v0 v3 v7 v8 v10 v11 v19 xs (ix2 p j)
      = ∑ i : Fin 16, k0_pay13 v0 v3 v7 v8 v10 v11 xs (ix2 p i) * v19 (ix2 i j) := by
  unfold k0_pay15
  simp only [mm_16_12]

/-- Its bias, laid under every row. -/
theorem pay16_apply (v20 : Vec Ideal S12 .f32) (p : Fin 2048) (j : Fin 12) : k0_pay16 v20 (ix2 p j) = v20 (ix1 j) := by
  unfold k0_pay16
  simp only [LibRowwise.rowUnder_apply]

/-- What the band stores, from the centred band `v40`, the backbone's output `v52`, the gate `v73` and the first expert's
    hidden layer in its two parts `v74 + v76`. -/
theorem pay17_apply (v4 v5 : Vec Ideal S3 .f32) (v22 : FVec Ideal S12x3 .bf16) (v23 : Vec Ideal S3 .f32) (v25 : FVec Ideal S16x12 .bf16)
    (v26 : Vec Ideal S12 .f32) (v28 : FVec Ideal S12x3 .bf16) (v29 : Vec Ideal S3 .f32) (v31 : FVec Ideal S64x3 .bf16)
    (v32 : Vec Ideal S3 .f32) (v40 : FVec Ideal S2048x64 .bf16) (v52 : FVec Ideal S2048x16 .bf16) (v73 : FVec Ideal S2048x2 .f32)
    (v74 v76 : FVec Ideal S2048x12 .f32) (p : Fin 2048) (q : Fin 3) :
    k0_pay17 v4 v5 v22 v23 v25 v26 v28 v29 v31 v32 v40 v52 v73 v74 v76 (ix2 p q)
      = ((v73 (ix2 p 0) * dense v22 v23 (act fun k => v74 (ix2 p k) + v76 (ix2 p k)) q
            + v73 (ix2 p 1) * dense v28 v29 (act (dense v25 v26 fun k => v52 (ix2 p k))) q)
          + skipWeight * dense v31 v32 (fun k => v40 (ix2 p k)) q) * v5 (ix1 q) + v4 (ix1 q) := by
  unfold k0_pay17 act dense
  simp only [addf_apply, mulf_apply, truncf_apply, tanh_apply, broadcast_apply, scalarBits, mm_12_3, mm_16_12, mm_64_3,
    LibRowwise.rowUnder_apply]
  rw [LibRowwise.columnOf_apply v73 0 (by omega) slices_S2048x2_o0_0_S2048x1 broadcasts_S2048x1_S2048x3 p q,
    LibRowwise.columnOf_apply v73 1 (by omega) slices_S2048x2_o0_1_S2048x1 broadcasts_S2048x1_S2048x3 p q]
  rfl

end Cert.KernelIdeal.Band

end
-- ==== Proof.KernelBlock.lean ====
/-
  A block of 8192 rows through the kernel's body, read at an index.

  The body stores four bands of 2048 rows, rows `o … o + 2047` of the output block from rows `o … o + 2047` of the data
  block, for `o = 0, 2048, 4096, 6144`, every band by the same operations on the same small arrays. So what the body
  leaves at `(r, q)` of the output block is the row function at row `r` of the data block, column `q`, whichever band
  `r` falls in. The bands tile the block, so every index is in one.
-/
import proofs.«152233_j75230647156948_1_alg».proof.Proof.Gen.KernelIdeal.Frame
import proofs.«152233_j75230647156948_1_alg».proof.Proof.KernelBand
import Idealize.ShloMosaic.Lib.Pipeline.Value

set_option maxRecDepth 16384

noncomputable section

namespace Cert.KernelIdeal.Block

open Cert.KernelIdeal Cert.KernelIdeal.Gen Cert.KernelIdeal.Band Idealize.ShloMosaic Idealize.ShloMosaic.ValueIdx Cert.Mixture
open scoped BigOperators

variable (x1 : Vec Ideal S64x24 .f32) (x2 : Vec Ideal S24 .f32) (x3 : Vec Ideal S24x16 .f32) (x4 : Vec Ideal S16 .f32)
    (x5 : Vec Ideal S64x12 .f32) (x6 : Vec Ideal S12 .f32) (x7 : Vec Ideal S12x2 .f32) (x8 : Vec Ideal S2 .f32)
    (x9 : Vec Ideal S16x12 .f32) (x10 : Vec Ideal S12 .f32) (x11 : Vec Ideal S12x3 .f32) (x12 : Vec Ideal S3 .f32)
    (x13 : Vec Ideal S16x12 .f32) (x14 : Vec Ideal S12 .f32) (x15 : Vec Ideal S12x3 .f32) (x16 : Vec Ideal S3 .f32)
    (x17 : Vec Ideal S64x3 .f32) (x18 : Vec Ideal S3 .f32) (x19 x20 : Vec Ideal S64 .f32) (x21 x22 : Vec Ideal S3 .f32)

/-- The small arrays as the row function takes them. -/
def weights : Weights := ⟨x1, x2, x3, x4, x5, x6, x7, x8, x9, x10, x11, x12, x13, x14, x15, x16, x17, x18, x19, x20, x21, x22⟩

/-- One band `xs` through the body's operations (spelt as the first band's payloads spell them). -/
def band (xs : Vec Ideal S2048x64 .f32) : FVec Ideal S2048x3 .f32 :=
  k0_pay17 x21 x22 (k0_pay8 x11) x12 (k0_pay9 x13) x14 (k0_pay10 x15) x16 (k0_pay11 x17) x18
    (k0_pay12 x19 (k0_pay2 x20) xs)
    (k0_pay13 x19 (k0_pay2 x20) (k0_pay3 x1) x2 (k0_pay4 x3) x4 xs)
    (k0_pay14 x19 (k0_pay2 x20) (k0_pay5 x5) x6 (k0_pay6 x7) x8 xs)
    (k0_pay15 x19 (k0_pay2 x20) (k0_pay3 x1) x2 (k0_pay4 x3) x4 (k0_pay7 x9) xs) (k0_pay16 x10)

/-- Entry `(p, q)` of a band is the row function of its row `p`, at `q`. -/
theorem band_apply (xs : Vec Ideal S2048x64 .f32) (p : Fin 2048) (q : Fin 3) :
    band x1 x2 x3 x4 x5 x6 x7 x8 x9 x10 x11 x12 x13 x14 x15 x16 x17 x18 x19 x20 x21 x22 xs (ix2 p q) = out (weights x1 x2 x3 x4 x5 x6 x7 x8 x9 x10 x11 x12 x13 x14 x15 x16 x17 x18 x19 x20 x21 x22) (fun k => xs (ix2 p k)) q := by
  unfold band
  rw [pay17_apply]
  simp only [pay16_apply, pay15_apply, pay14_apply, pay13_apply, pay12_apply]
  rfl

/-- Rows `o … o + 2047` of the data block give rows `o … o + 2047` of the output block: a band's entry `x`, placed in the
    block, is the row function of the block's row there. -/
theorem band_at (x0 : Vec Ideal S8192x64 .f32) (o : ℕ)
    (inbI : ∀ a, (![o, 0] : Fin 2 → ℕ) a + S2048x64.size a ≤ S8192x64.size a)
    (inbO : ∀ a, (![o, 0] : Fin 2 → ℕ) a + S2048x3.size a ≤ S8192x3.size a) (x : S2048x3.Idx) :
    band x1 x2 x3 x4 x5 x6 x7 x8 x9 x10 x11 x12 x13 x14 x15 x16 x17 x18 x19 x20 x21 x22 (View.ld x0 (Rect.unit (s := S8192x64) ![o, 0] S2048x64.size inbI)) x
      = out (weights x1 x2 x3 x4 x5 x6 x7 x8 x9 x10 x11 x12 x13 x14 x15 x16 x17 x18 x19 x20 x21 x22) (fun k => x0 (ix2 (((Rect.unit (s := S8192x3) ![o, 0] S2048x3.size inbO).emb x) 0) k))
          (((Rect.unit (s := S8192x3) ![o, 0] S2048x3.size inbO).emb x) 1) := by
  obtain ⟨p, q, rfl⟩ : ∃ (p : Fin 2048) (q : Fin 3), x = ix2 p q := ⟨x 0, x 1, eq_ix2 x⟩
  refine (band_apply x1 x2 x3 x4 x5 x6 x7 x8 x9 x10 x11 x12 x13 x14 x15 x16 x17 x18 x19 x20 x21 x22 _ p q).trans ?_
  have e1 : ((Rect.unit (s := S8192x3) ![o, 0] S2048x3.size inbO).emb (ix2 p q)) 1 = q := Fin.ext (by
    show 0 + 1 * q.val = q.val; omega)
  have e0 : (fun k : Fin 64 => View.ld x0 (Rect.unit (s := S8192x64) ![o, 0] S2048x64.size inbI) (ix2 p k))
      = fun k : Fin 64 => x0 (ix2 (((Rect.unit (s := S8192x3) ![o, 0] S2048x3.size inbO).emb (ix2 p q)) 0) k) :=
    funext fun k => congrArg x0 (funext fun a => Fin.ext (by
      match a with
      | ⟨0, _⟩ => rfl
      | ⟨1, _⟩ => show 0 + 1 * k.val = k.val; omega))
  exact congrArg₂ (out (weights x1 x2 x3 x4 x5 x6 x7 x8 x9 x10 x11 x12 x13 x14 x15 x16 x17 x18 x19 x20 x21 x22)) e0 e1.symm

theorem hz1 : (![0] : Fin 1 → ℕ) = fun _ => 0 := funext fun a => by fin_cases a; rfl
theorem hz2 : (![0, 0] : Fin 2 → ℕ) = fun _ => 0 := funext fun a => by fin_cases a <;> rfl

/-- What the body leaves at index `y` of the output block: the row function of row `y 0` of the data block, at `y 1`. -/
theorem block_apply (x0 : Vec Ideal S8192x64 .f32) (y : S8192x3.Idx) :
    out0_23 x0 x1 x2 x3 x4 x5 x6 x7 x8 x9 x10 x11 x12 x13 x14 x15 x16 x17 x18 x19 x20 x21 x22 y = out (weights x1 x2 x3 x4 x5 x6 x7 x8 x9 x10 x11 x12 x13 x14 x15 x16 x17 x18 x19 x20 x21 x22) (fun k => x0 (ix2 (y 0) k)) (y 1) := by
  unfold out0_23
  simp only [View.ld_unit_zero (S := S64) hz1, View.ld_unit_zero (S := S3) hz1, View.ld_unit_zero (S := S24) hz1,
    View.ld_unit_zero (S := S16) hz1, View.ld_unit_zero (S := S12) hz1, View.ld_unit_zero (S := S2) hz1,
    View.ld_unit_zero (S := S64x24) hz2, View.ld_unit_zero (S := S24x16) hz2, View.ld_unit_zero (S := S64x12) hz2,
    View.ld_unit_zero (S := S12x2) hz2, View.ld_unit_zero (S := S16x12) hz2, View.ld_unit_zero (S := S12x3) hz2,
    View.ld_unit_zero (S := S64x3) hz2]
  refine View.canon_apply_of_pieces (Val := Elt Ideal) (S := S8192x3) (e := .f32)
    (fun y : S8192x3.Idx => (out (weights x1 x2 x3 x4 x5 x6 x7 x8 x9 x10 x11 x12 x13 x14 x15 x16 x17 x18 x19 x20 x21 x22) (fun k => x0 (ix2 (y 0) k)) (y 1) : Elt Ideal .f32)) _ ?_ y
    (cover0_23 _ _ _ _ y)
  intro pc hpc x
  rcases List.mem_cons.mp hpc with rfl | hpc
  · refine Eq.trans (congrFun (?_ : _ = band x1 x2 x3 x4 x5 x6 x7 x8 x9 x10 x11 x12 x13 x14 x15 x16 x17 x18 x19 x20 x21 x22 (View.ld x0 r0_19)) x)
      (band_at x1 x2 x3 x4 x5 x6 x7 x8 x9 x10 x11 x12 x13 x14 x15 x16 x17 x18 x19 x20 x21 x22 x0 6144 inb_S8192x64_S2048x64_6144_0 inb_S8192x3_S2048x3_6144_0 x)
    rfl
  rcases List.mem_cons.mp hpc with rfl | hpc
  · refine Eq.trans (congrFun (?_ : _ = band x1 x2 x3 x4 x5 x6 x7 x8 x9 x10 x11 x12 x13 x14 x15 x16 x17 x18 x19 x20 x21 x22 (View.ld x0 r0_17)) x)
      (band_at x1 x2 x3 x4 x5 x6 x7 x8 x9 x10 x11 x12 x13 x14 x15 x16 x17 x18 x19 x20 x21 x22 x0 4096 inb_S8192x64_S2048x64_4096_0 inb_S8192x3_S2048x3_4096_0 x)
    rfl
  rcases List.mem_cons.mp hpc with rfl | hpc
  · refine Eq.trans (congrFun (?_ : _ = band x1 x2 x3 x4 x5 x6 x7 x8 x9 x10 x11 x12 x13 x14 x15 x16 x17 x18 x19 x20 x21 x22 (View.ld x0 r0_15)) x)
      (band_at x1 x2 x3 x4 x5 x6 x7 x8 x9 x10 x11 x12 x13 x14 x15 x16 x17 x18 x19 x20 x21 x22 x0 2048 inb_S8192x64_S2048x64_2048_0 inb_S8192x3_S2048x3_2048_0 x)
    rfl
  rcases List.mem_cons.mp hpc with rfl | hpc
  · refine Eq.trans (congrFun (?_ : _ = band x1 x2 x3 x4 x5 x6 x7 x8 x9 x10 x11 x12 x13 x14 x15 x16 x17 x18 x19 x20 x21 x22 (View.ld x0 r0_13)) x)
      (band_at x1 x2 x3 x4 x5 x6 x7 x8 x9 x10 x11 x12 x13 x14 x15 x16 x17 x18 x19 x20 x21 x22 x0 0 inb_S8192x64_S2048x64_0_0 inb_S8192x3_S2048x3_0_0 x)
    rfl
  exact absurd hpc (List.not_mem_nil)

end Cert.KernelIdeal.Block

end
-- ==== Proof.KernelWhole.lean ====
/-
  From blocks to the whole array.

  The grid has 128 points; point `t` takes rows `8192 t … 8192 t + 8191` of the data as its data block and writes the
  same rows of the result; every other array is taken whole at every point. So what point `t` writes back is block `t`
  of one function of the argument arrays — row `i 0` of the data through the row function, column `i 1` — and since the
  128 blocks cover all 1048576 rows, the result array ends holding that function.
-/
import proofs.«152233_j75230647156948_1_alg».proof.Proof.Gen.KernelIdeal.Value
import proofs.«152233_j75230647156948_1_alg».proof.Proof.KernelBlock
import Idealize.ShloMosaic.Lib.Pipeline.Value

set_option maxRecDepth 16384

noncomputable section

namespace Cert.KernelIdeal.Whole

open Cert.KernelIdeal Cert.KernelIdeal.Gen Cert.KernelIdeal.Block Idealize.ShloMosaic Idealize.ShloMosaic.TcCoe
open Idealize.ShloMosaic.ValueIdx Idealize.SL.Sem Cert.Mixture
open Idealize.ShloMosaic.Pipeline (Dat)

variable (m : (ℓ : Loc nD τ sig) → Buf (Elt Ideal) ℓ) (ρ : Dev nD → PrngReg)

/-- The result array as one function of the argument arrays. -/
def final (c : Dev nD) : S1048576x3.Idx → Elt Ideal .f32 :=
  result (n := 1048576) (weights (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22)) (V m c main_arg0)

/-- The index maps over the grid: the data's and the result's blocks move with the point along the rows, every other
    window stays at its one block. -/
theorem idx_facts : ∀ t : Fin cfg0.N, win0_23.index t (0 : Fin 2) = t.val
    ∧ win0_23.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0
    ∧ win0_17.index t (0 : Fin 2) = 0
    ∧ win0_17.index t (1 : Fin 2) = 0
    ∧ win0_18.index t (0 : Fin 1) = 0
    ∧ win0_19.index t (0 : Fin 1) = 0
    ∧ win0_20.index t (0 : Fin 1) = 0
    ∧ win0_21.index t (0 : Fin 1) = 0
    ∧ win0_22.index t (0 : Fin 1) = 0 :=
  (by decide +kernel : ∀ t : Fin grid0.N, _)

/-! ## The small arrays are taken whole at every point -/

theorem whole1 (c : Dev nD) (t : Fin cfg0.N) : iblk m c 1 t = V m c main_arg1 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg1 (((cfg0.win 1).blk t).view.emb y) = V m c main_arg1 y
  refine congrArg (V m c main_arg1) (funext fun a => Fin.ext ?_)
  match a with
    | ⟨0, _⟩ => show win0_1.index t (0 : Fin 2) * 64 + 1 * (y 0).val = (y 0).val; omega
    | ⟨1, _⟩ => show win0_1.index t (1 : Fin 2) * 24 + 1 * (y 1).val = (y 1).val; omega

theorem whole2 (c : Dev nD) (t : Fin cfg0.N) : iblk m c 2 t = V m c main_arg2 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg2 (((cfg0.win 2).blk t).view.emb y) = V m c main_arg2 y
  refine congrArg (V m c main_arg2) (funext fun a => Fin.ext ?_)
  match a with
    | ⟨0, _⟩ => show win0_2.index t (0 : Fin 1) * 24 + 1 * (y 0).val = (y 0).val; omega

theorem whole3 (c : Dev nD) (t : Fin cfg0.N) : iblk m c 3 t = V m c main_arg3 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg3 (((cfg0.win 3).blk t).view.emb y) = V m c main_arg3 y
  refine congrArg (V m c main_arg3) (funext fun a => Fin.ext ?_)
  match a with
    | ⟨0, _⟩ => show win0_3.index t (0 : Fin 2) * 24 + 1 * (y 0).val = (y 0).val; omega
    | ⟨1, _⟩ => show win0_3.index t (1 : Fin 2) * 16 + 1 * (y 1).val = (y 1).val; omega

theorem whole4 (c : Dev nD) (t : Fin cfg0.N) : iblk m c 4 t = V m c main_arg4 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg4 (((cfg0.win 4).blk t).view.emb y) = V m c main_arg4 y
  refine congrArg (V m c main_arg4) (funext fun a => Fin.ext ?_)
  match a with
    | ⟨0, _⟩ => show win0_4.index t (0 : Fin 1) * 16 + 1 * (y 0).val = (y 0).val; omega

theorem whole5 (c : Dev nD) (t : Fin cfg0.N) : iblk m c 5 t = V m c main_arg5 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg5 (((cfg0.win 5).blk t).view.emb y) = V m c main_arg5 y
  refine congrArg (V m c main_arg5) (funext fun a => Fin.ext ?_)
  match a with
    | ⟨0, _⟩ => show win0_5.index t (0 : Fin 2) * 64 + 1 * (y 0).val = (y 0).val; omega
    | ⟨1, _⟩ => show win0_5.index t (1 : Fin 2) * 12 + 1 * (y 1).val = (y 1).val; omega

theorem whole6 (c : Dev nD) (t : Fin cfg0.N) : iblk m c 6 t = V m c main_arg6 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg6 (((cfg0.win 6).blk t).view.emb y) = V m c main_arg6 y
  refine congrArg (V m c main_arg6) (funext fun a => Fin.ext ?_)
  match a with
    | ⟨0, _⟩ => show win0_6.index t (0 : Fin 1) * 12 + 1 * (y 0).val = (y 0).val; omega

theorem whole7 (c : Dev nD) (t : Fin cfg0.N) : iblk m c 7 t = V m c main_arg7 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg7 (((cfg0.win 7).blk t).view.emb y) = V m c main_arg7 y
  refine congrArg (V m c main_arg7) (funext fun a => Fin.ext ?_)
  match a with
    | ⟨0, _⟩ => show win0_7.index t (0 : Fin 2) * 12 + 1 * (y 0).val = (y 0).val; omega
    | ⟨1, _⟩ => show win0_7.index t (1 : Fin 2) * 2 + 1 * (y 1).val = (y 1).val; omega

theorem whole8 (c : Dev nD) (t : Fin cfg0.N) : iblk m c 8 t = V m c main_arg8 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg8 (((cfg0.win 8).blk t).view.emb y) = V m c main_arg8 y
  refine congrArg (V m c main_arg8) (funext fun a => Fin.ext ?_)
  match a with
    | ⟨0, _⟩ => show win0_8.index t (0 : Fin 1) * 2 + 1 * (y 0).val = (y 0).val; omega

theorem whole9 (c : Dev nD) (t : Fin cfg0.N) : iblk m c 9 t = V m c main_arg9 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg9 (((cfg0.win 9).blk t).view.emb y) = V m c main_arg9 y
  refine congrArg (V m c main_arg9) (funext fun a => Fin.ext ?_)
  match a with
    | ⟨0, _⟩ => show win0_9.index t (0 : Fin 2) * 16 + 1 * (y 0).val = (y 0).val; omega
    | ⟨1, _⟩ => show win0_9.index t (1 : Fin 2) * 12 + 1 * (y 1).val = (y 1).val; omega

theorem whole10 (c : Dev nD) (t : Fin cfg0.N) : iblk m c 10 t = V m c main_arg10 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg10 (((cfg0.win 10).blk t).view.emb y) = V m c main_arg10 y
  refine congrArg (V m c main_arg10) (funext fun a => Fin.ext ?_)
  match a with
    | ⟨0, _⟩ => show win0_10.index t (0 : Fin 1) * 12 + 1 * (y 0).val = (y 0).val; omega

theorem whole11 (c : Dev nD) (t : Fin cfg0.N) : iblk m c 11 t = V m c main_arg11 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg11 (((cfg0.win 11).blk t).view.emb y) = V m c main_arg11 y
  refine congrArg (V m c main_arg11) (funext fun a => Fin.ext ?_)
  match a with
    | ⟨0, _⟩ => show win0_11.index t (0 : Fin 2) * 12 + 1 * (y 0).val = (y 0).val; omega
    | ⟨1, _⟩ => show win0_11.index t (1 : Fin 2) * 3 + 1 * (y 1).val = (y 1).val; omega

theorem whole12 (c : Dev nD) (t : Fin cfg0.N) : iblk m c 12 t = V m c main_arg12 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg12 (((cfg0.win 12).blk t).view.emb y) = V m c main_arg12 y
  refine congrArg (V m c main_arg12) (funext fun a => Fin.ext ?_)
  match a with
    | ⟨0, _⟩ => show win0_12.index t (0 : Fin 1) * 3 + 1 * (y 0).val = (y 0).val; omega

theorem whole13 (c : Dev nD) (t : Fin cfg0.N) : iblk m c 13 t = V m c main_arg13 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg13 (((cfg0.win 13).blk t).view.emb y) = V m c main_arg13 y
  refine congrArg (V m c main_arg13) (funext fun a => Fin.ext ?_)
  match a with
    | ⟨0, _⟩ => show win0_13.index t (0 : Fin 2) * 16 + 1 * (y 0).val = (y 0).val; omega
    | ⟨1, _⟩ => show win0_13.index t (1 : Fin 2) * 12 + 1 * (y 1).val = (y 1).val; omega

theorem whole14 (c : Dev nD) (t : Fin cfg0.N) : iblk m c 14 t = V m c main_arg14 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg14 (((cfg0.win 14).blk t).view.emb y) = V m c main_arg14 y
  refine congrArg (V m c main_arg14) (funext fun a => Fin.ext ?_)
  match a with
    | ⟨0, _⟩ => show win0_14.index t (0 : Fin 1) * 12 + 1 * (y 0).val = (y 0).val; omega

theorem whole15 (c : Dev nD) (t : Fin cfg0.N) : iblk m c 15 t = V m c main_arg15 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg15 (((cfg0.win 15).blk t).view.emb y) = V m c main_arg15 y
  refine congrArg (V m c main_arg15) (funext fun a => Fin.ext ?_)
  match a with
    | ⟨0, _⟩ => show win0_15.index t (0 : Fin 2) * 12 + 1 * (y 0).val = (y 0).val; omega
    | ⟨1, _⟩ => show win0_15.index t (1 : Fin 2) * 3 + 1 * (y 1).val = (y 1).val; omega

theorem whole16 (c : Dev nD) (t : Fin cfg0.N) : iblk m c 16 t = V m c main_arg16 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg16 (((cfg0.win 16).blk t).view.emb y) = V m c main_arg16 y
  refine congrArg (V m c main_arg16) (funext fun a => Fin.ext ?_)
  match a with
    | ⟨0, _⟩ => show win0_16.index t (0 : Fin 1) * 3 + 1 * (y 0).val = (y 0).val; omega

theorem whole17 (c : Dev nD) (t : Fin cfg0.N) : iblk m c 17 t = V m c main_arg17 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg17 (((cfg0.win 17).blk t).view.emb y) = V m c main_arg17 y
  refine congrArg (V m c main_arg17) (funext fun a => Fin.ext ?_)
  match a with
    | ⟨0, _⟩ => show win0_17.index t (0 : Fin 2) * 64 + 1 * (y 0).val = (y 0).val; omega
    | ⟨1, _⟩ => show win0_17.index t (1 : Fin 2) * 3 + 1 * (y 1).val = (y 1).val; omega

theorem whole18 (c : Dev nD) (t : Fin cfg0.N) : iblk m c 18 t = V m c main_arg18 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg18 (((cfg0.win 18).blk t).view.emb y) = V m c main_arg18 y
  refine congrArg (V m c main_arg18) (funext fun a => Fin.ext ?_)
  match a with
    | ⟨0, _⟩ => show win0_18.index t (0 : Fin 1) * 3 + 1 * (y 0).val = (y 0).val; omega

theorem whole19 (c : Dev nD) (t : Fin cfg0.N) : iblk m c 19 t = V m c main_arg19 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg19 (((cfg0.win 19).blk t).view.emb y) = V m c main_arg19 y
  refine congrArg (V m c main_arg19) (funext fun a => Fin.ext ?_)
  match a with
    | ⟨0, _⟩ => show win0_19.index t (0 : Fin 1) * 64 + 1 * (y 0).val = (y 0).val; omega

theorem whole20 (c : Dev nD) (t : Fin cfg0.N) : iblk m c 20 t = V m c main_arg20 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg20 (((cfg0.win 20).blk t).view.emb y) = V m c main_arg20 y
  refine congrArg (V m c main_arg20) (funext fun a => Fin.ext ?_)
  match a with
    | ⟨0, _⟩ => show win0_20.index t (0 : Fin 1) * 64 + 1 * (y 0).val = (y 0).val; omega

theorem whole21 (c : Dev nD) (t : Fin cfg0.N) : iblk m c 21 t = V m c main_arg21 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg21 (((cfg0.win 21).blk t).view.emb y) = V m c main_arg21 y
  refine congrArg (V m c main_arg21) (funext fun a => Fin.ext ?_)
  match a with
    | ⟨0, _⟩ => show win0_21.index t (0 : Fin 1) * 3 + 1 * (y 0).val = (y 0).val; omega

theorem whole22 (c : Dev nD) (t : Fin cfg0.N) : iblk m c 22 t = V m c main_arg22 := by
  funext y
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show V m c main_arg22 (((cfg0.win 22).blk t).view.emb y) = V m c main_arg22 y
  refine congrArg (V m c main_arg22) (funext fun a => Fin.ext ?_)
  match a with
    | ⟨0, _⟩ => show win0_22.index t (0 : Fin 1) * 3 + 1 * (y 0).val = (y 0).val; omega

/-! ## What a point writes back -/

/-- Point `t` writes back block `t` of `final`. -/
theorem flushed_eq (c : Dev nD) (t : Fin cfg0.N) :
    (dats m 0 c).flushed 23 t = ((cfg0.win 23).blk t).view.read (Elt Ideal) (final m c) := by
  rw [Cert.KernelIdeal.Value.flushed23]
  funext j
  obtain ⟨f0, f1, f2, f3, f4, f5, f6, f7, f8, f9, f10, f11, f12, f13, f14, f15, f16, f17, f18, f19, f20, f21, f22, f23, f24, f25, f26, f27, f28, f29, f30, f31, f32, f33, f34⟩ := idx_facts t
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) j = final m c (((cfg0.win 23).blk t).view.emb j)
  refine (block_apply (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 0 t) j).trans ?_
  rw [whole1 m c t, whole2 m c t, whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t, whole19 m c t, whole20 m c t, whole21 m c t, whole22 m c t]
  have h1 : (((cfg0.win 23).blk t).view.emb j) 1 = j 1 := Fin.ext (by
    show win0_23.index t (1 : Fin 2) * 3 + 1 * (j 1).val = (j 1).val; omega)
  have h0 : (fun k : Fin 64 => iblk m c 0 t (ix2 (j 0) k))
      = fun k : Fin 64 => V m c main_arg0 (ix2 ((((cfg0.win 23).blk t).view.emb j) 0) k) :=
    funext fun k => by
      show V m c main_arg0 (((cfg0.win 0).blk t).view.emb (ix2 (j 0) k)) = _
      refine congrArg (V m c main_arg0) (funext fun a => Fin.ext ?_)
      match a with
      | ⟨0, _⟩ =>
        show win0_0.index t (0 : Fin 2) * 8192 + 1 * (j 0).val = win0_23.index t (0 : Fin 2) * 8192 + 1 * (j 0).val
        omega
      | ⟨1, _⟩ => show win0_0.index t (1 : Fin 2) * 64 + 1 * k.val = k.val; omega
  exact congrArg₂ (out (weights (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22))) h0 h1.symm

/-! ## The blocks cover the array -/

/-- An index is in point `t`'s block iff each coordinate is in the block's range on its axis. -/
theorem mem_blk (t : Fin cfg0.N) (i : S1048576x3.Idx) :
    i ∈ ((cfg0.win 23).blk t).view.set ↔ ∀ a : Fin 2, win0_23.index t a * S8192x3.size a ≤ (i a).val
      ∧ (i a).val < win0_23.index t a * S8192x3.size a + S8192x3.size a := by
  show i ∈ ((View.whole main_v0).slice (win0_23.rect t)).set ↔ _
  rw [View.set_slice_whole, Rect.mem_set_unit]
  exact Iff.rfl

/-- Row `r` is in the block of point `r / 8192`. -/
theorem cover (i : S1048576x3.Idx) :
    ∃ t : Fin cfg0.N, (cfg0.win 23).flush t = true ∧ i ∈ ((cfg0.win 23).blk t).view.set := by
  have hi0 : (i 0).val < 1048576 := (i 0).isLt
  have hi1 : (i 1).val < 3 := (i 1).isLt
  have ht : (i 0).val / 8192 < cfg0.N := by show (i 0).val / 8192 < 128; omega
  obtain ⟨f0, f1, f2, f3, f4, f5, f6, f7, f8, f9, f10, f11, f12, f13, f14, f15, f16, f17, f18, f19, f20, f21, f22, f23, f24, f25, f26, f27, f28, f29, f30, f31, f32, f33, f34⟩ := idx_facts ⟨(i 0).val / 8192, ht⟩
  refine ⟨⟨(i 0).val / 8192, ht⟩, flush0_23 _, ?_⟩
  rw [mem_blk]
  intro a
  match a with
  | ⟨0, _⟩ =>
    show win0_23.index ⟨(i 0).val / 8192, ht⟩ (0 : Fin 2) * 8192 ≤ (i 0).val
      ∧ (i 0).val < win0_23.index ⟨(i 0).val / 8192, ht⟩ (0 : Fin 2) * 8192 + 8192
    have e : (⟨(i 0).val / 8192, ht⟩ : Fin cfg0.N).val = (i 0).val / 8192 := rfl
    omega
  | ⟨1, _⟩ =>
    show win0_23.index ⟨(i 0).val / 8192, ht⟩ (1 : Fin 2) * 3 ≤ (i 1).val
      ∧ (i 1).val < win0_23.index ⟨(i 0).val / 8192, ht⟩ (1 : Fin 2) * 3 + 3
    omega

/-- The result array after the run. -/
theorem arrAt_final (c : Dev nD) : (dats m 0 c).arrAt 23 cfg0.N = final m c :=
  (dats m 0 c).arrAt_eq_of_cover 23 (final m c) (fun t _ => flushed_eq m c t) cover

/-- The kernel's run: the result array ends at `final`, the arguments as launched. -/
theorem run : θ_run defs (onTc (τ := τ) (main (F := Ideal))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (arrAt_final m c), (h c).2⟩)
    (Cert.KernelIdeal.Value.run_blocks m ρ)

end Cert.KernelIdeal.Whole

end
-- ==== Proof.ReferenceRows.lean ====
/-
  The reference, one row at a time.

  Every operation of the reference acts on the rows of the data independently: a matrix product contracts along the
  row, a bias or a per-column scale is the same under every row, the softmax's maximum and sum run along the row. So
  entry `(r, q)` of each intermediate array is a function of row `r` of the data, and entry `(r, q)` of the result is the
  row function of `Mixture` at row `r`, column `q`. The host's quotient, tanh and exponential are, on the extended reals,
  the same functions the kernel's are; its sum from the zero word is the plain sum.
-/
import proofs.«152233_j75230647156948_1_alg».proof.Proof.Gen.ReferenceIdeal.Read
import proofs.«152233_j75230647156948_1_alg».proof.Proof.Mixture
import proofs.«152233_j75230647156948_1_alg».proof.Proof.LibRowwise
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx Cert.Mixture
open scoped BigOperators

variable (x0 : (⟨S1048576x64, .f32⟩ : BufTy).Contents (Elt Ideal))
  (x1 : (⟨S64x24, .f32⟩ : BufTy).Contents (Elt Ideal))
  (x2 : (⟨S24, .f32⟩ : BufTy).Contents (Elt Ideal))
  (x3 : (⟨S24x16, .f32⟩ : BufTy).Contents (Elt Ideal))
  (x4 : (⟨S16, .f32⟩ : BufTy).Contents (Elt Ideal))
  (x5 : (⟨S64x12, .f32⟩ : BufTy).Contents (Elt Ideal))
  (x6 : (⟨S12, .f32⟩ : BufTy).Contents (Elt Ideal))
  (x7 : (⟨S12x2, .f32⟩ : BufTy).Contents (Elt Ideal))
  (x8 : (⟨S2, .f32⟩ : BufTy).Contents (Elt Ideal))
  (x9 : (⟨S16x12, .f32⟩ : BufTy).Contents (Elt Ideal))
  (x10 : (⟨S12, .f32⟩ : BufTy).Contents (Elt Ideal))
  (x11 : (⟨S12x3, .f32⟩ : BufTy).Contents (Elt Ideal))
  (x12 : (⟨S3, .f32⟩ : BufTy).Contents (Elt Ideal))
  (x13 : (⟨S16x12, .f32⟩ : BufTy).Contents (Elt Ideal))
  (x14 : (⟨S12, .f32⟩ : BufTy).Contents (Elt Ideal))
  (x15 : (⟨S12x3, .f32⟩ : BufTy).Contents (Elt Ideal))
  (x16 : (⟨S3, .f32⟩ : BufTy).Contents (Elt Ideal))
  (x17 : (⟨S64x3, .f32⟩ : BufTy).Contents (Elt Ideal))
  (x18 : (⟨S3, .f32⟩ : BufTy).Contents (Elt Ideal))
  (x19 : (⟨S64, .f32⟩ : BufTy).Contents (Elt Ideal))
  (x20 : (⟨S64, .f32⟩ : BufTy).Contents (Elt Ideal))
  (x21 : (⟨S3, .f32⟩ : BufTy).Contents (Elt Ideal))
  (x22 : (⟨S3, .f32⟩ : BufTy).Contents (Elt Ideal))

/-! ## The per-column arrays laid under every row -/

/-- The mean, under every row. -/
theorem mean_under (r : Fin 1048576) (j : Fin 64) : val_main_v1 (F := Ideal) x19 (ix2 r j) = x19 (ix1 j) :=
  (val_main_v1_apply x19 _).trans ((val_main_v0_apply x19 _).trans (congrArg x19 (funext fun a => match a with | ⟨0, _⟩ => rfl)))
/-- The backbone's first bias. -/
theorem bias_bb1 (r : Fin 1048576) (j : Fin 24) : val_main_v10 (F := Ideal) x2 (ix2 r j) = x2 (ix1 j) :=
  (val_main_v10_apply x2 _).trans ((val_main_v9_apply x2 _).trans (congrArg x2 (funext fun a => match a with | ⟨0, _⟩ => rfl)))
/-- The backbone's second bias. -/
theorem bias_bb2 (r : Fin 1048576) (j : Fin 16) : val_main_v15 (F := Ideal) x4 (ix2 r j) = x4 (ix1 j) :=
  (val_main_v15_apply x4 _).trans ((val_main_v14_apply x4 _).trans (congrArg x4 (funext fun a => match a with | ⟨0, _⟩ => rfl)))
/-- The gate's first bias. -/
theorem bias_g1 (r : Fin 1048576) (j : Fin 12) : val_main_v20 (F := Ideal) x6 (ix2 r j) = x6 (ix1 j) :=
  (val_main_v20_apply x6 _).trans ((val_main_v19_apply x6 _).trans (congrArg x6 (funext fun a => match a with | ⟨0, _⟩ => rfl)))
/-- The gate's second bias. -/
theorem bias_g2 (r : Fin 1048576) (j : Fin 2) : val_main_v25 (F := Ideal) x8 (ix2 r j) = x8 (ix1 j) :=
  (val_main_v25_apply x8 _).trans ((val_main_v24_apply x8 _).trans (congrArg x8 (funext fun a => match a with | ⟨0, _⟩ => rfl)))
/-- The first expert's first bias. -/
theorem bias_e1a (r : Fin 1048576) (j : Fin 12) : val_main_v40 (F := Ideal) x10 (ix2 r j) = x10 (ix1 j) :=
  (val_main_v40_apply x10 _).trans ((val_main_v39_apply x10 _).trans (congrArg x10 (funext fun a => match a with | ⟨0, _⟩ => rfl)))
/-- The first expert's second bias. -/
theorem bias_e1b (r : Fin 1048576) (j : Fin 3) : val_main_v45 (F := Ideal) x12 (ix2 r j) = x12 (ix1 j) :=
  (val_main_v45_apply x12 _).trans ((val_main_v44_apply x12 _).trans (congrArg x12 (funext fun a => match a with | ⟨0, _⟩ => rfl)))
/-- The second expert's first bias. -/
theorem bias_e2a (r : Fin 1048576) (j : Fin 12) : val_main_v49 (F := Ideal) x14 (ix2 r j) = x14 (ix1 j) :=
  (val_main_v49_apply x14 _).trans ((val_main_v48_apply x14 _).trans (congrArg x14 (funext fun a => match a with | ⟨0, _⟩ => rfl)))
/-- The second expert's second bias. -/
theorem bias_e2b (r : Fin 1048576) (j : Fin 3) : val_main_v54 (F := Ideal) x16 (ix2 r j) = x16 (ix1 j) :=
  (val_main_v54_apply x16 _).trans ((val_main_v53_apply x16 _).trans (congrArg x16 (funext fun a => match a with | ⟨0, _⟩ => rfl)))
/-- The skip path's bias. -/
theorem bias_sk (r : Fin 1048576) (j : Fin 3) : val_main_v65 (F := Ideal) x18 (ix2 r j) = x18 (ix1 j) :=
  (val_main_v65_apply x18 _).trans ((val_main_v64_apply x18 _).trans (congrArg x18 (funext fun a => match a with | ⟨0, _⟩ => rfl)))
/-- The output's scale. -/
theorem scale_out (r : Fin 1048576) (j : Fin 3) : val_main_v71 (F := Ideal) x22 (ix2 r j) = x22 (ix1 j) :=
  (val_main_v71_apply x22 _).trans ((val_main_v70_apply x22 _).trans (congrArg x22 (funext fun a => match a with | ⟨0, _⟩ => rfl)))
/-- The output's shift. -/
theorem shift_out (r : Fin 1048576) (j : Fin 3) : val_main_v74 (F := Ideal) x21 (ix2 r j) = x21 (ix1 j) :=
  (val_main_v74_apply x21 _).trans ((val_main_v73_apply x21 _).trans (congrArg x21 (funext fun a => match a with | ⟨0, _⟩ => rfl)))

/-- The floored scale, under every row. -/
theorem scale_under (r : Fin 1048576) (k : Fin 64) : val_main_v6 (F := Ideal) x20 (ix2 r k) = max (x20 (ix1 k)) floorStd := by
  rw [val_main_v6_apply, val_main_v5_apply, val_main_v4_apply, val_main_v3_apply, val_main_cst_apply,
    show idx_main_v5 (idx_main_v6 (ix2 r k)) = ix1 k from funext fun a => match a with | ⟨0, _⟩ => rfl]
  rfl

/-! ## The layers -/

/-- The centred, scaled data. -/
theorem normed_at (r : Fin 1048576) (k : Fin 64) : val_main_v7 (F := Ideal) x0 x19 x20 (ix2 r k) = (normed x19 x20 (fun k => x0 (ix2 r k))) k := by
  rw [val_main_v7_apply, val_main_v2_apply, mean_under, scale_under]
  rfl

/-- The backbone's first layer before tanh. -/
theorem bb1_pre (r : Fin 1048576) (j : Fin 24) : val_main_v11 (F := Ideal) x0 x1 x2 x19 x20 (ix2 r j) = dense x1 x2 (normed x19 x20 (fun k => x0 (ix2 r k))) j := by
  rw [val_main_v11_apply, val_main_v8_apply, bias_bb1]
  show (∑ k : Fin 64, val_main_v7 (F := Ideal) x0 x19 x20 (lidx_main_v8 (ix2 r j) k) * x1 (ridx_main_v8 (ix2 r j) k)) + x2 (ix1 j)
    = (∑ k : Fin 64, (normed x19 x20 (fun k => x0 (ix2 r k))) k * x1 (ix2 k j)) + x2 (ix1 j)
  refine congrArg (· + x2 (ix1 j)) (Finset.sum_congr rfl fun k _ => ?_)
  rw [show lidx_main_v8 (ix2 r j) k = ix2 r k from funext fun a => match a with | ⟨0, _⟩ => rfl | ⟨1, _⟩ => rfl,
    show ridx_main_v8 (ix2 r j) k = ix2 k j from funext fun a => match a with | ⟨0, _⟩ => rfl | ⟨1, _⟩ => rfl, normed_at]
/-- The backbone's first layer. -/
theorem bb1_at (r : Fin 1048576) (j : Fin 24) : val_main_v12 (F := Ideal) x0 x1 x2 x19 x20 (ix2 r j) = act (dense x1 x2 (normed x19 x20 (fun k => x0 (ix2 r k)))) j := by
  rw [val_main_v12_apply, bb1_pre]
  rfl
/-- The backbone's second layer before tanh. -/
theorem bb2_pre (r : Fin 1048576) (j : Fin 16) : val_main_v16 (F := Ideal) x0 x1 x2 x3 x4 x19 x20 (ix2 r j) = dense x3 x4 (act (dense x1 x2 (normed x19 x20 (fun k => x0 (ix2 r k))))) j := by
  rw [val_main_v16_apply, val_main_v13_apply, bias_bb2]
  show (∑ k : Fin 24, val_main_v12 (F := Ideal) x0 x1 x2 x19 x20 (lidx_main_v13 (ix2 r j) k) * x3 (ridx_main_v13 (ix2 r j) k)) + x4 (ix1 j)
    = (∑ k : Fin 24, (act (dense x1 x2 (normed x19 x20 (fun k => x0 (ix2 r k))))) k * x3 (ix2 k j)) + x4 (ix1 j)
  refine congrArg (· + x4 (ix1 j)) (Finset.sum_congr rfl fun k _ => ?_)
  rw [show lidx_main_v13 (ix2 r j) k = ix2 r k from funext fun a => match a with | ⟨0, _⟩ => rfl | ⟨1, _⟩ => rfl,
    show ridx_main_v13 (ix2 r j) k = ix2 k j from funext fun a => match a with | ⟨0, _⟩ => rfl | ⟨1, _⟩ => rfl, bb1_at]
/-- The backbone's output. -/
theorem hidden_at (r : Fin 1048576) (j : Fin 16) : val_main_v17 (F := Ideal) x0 x1 x2 x3 x4 x19 x20 (ix2 r j) = act (dense x3 x4 (act (dense x1 x2 (normed x19 x20 (fun k => x0 (ix2 r k)))))) j := by
  rw [val_main_v17_apply, bb2_pre]
  rfl
/-- The gate's first layer before tanh. -/
theorem g1_pre (r : Fin 1048576) (j : Fin 12) : val_main_v21 (F := Ideal) x0 x5 x6 x19 x20 (ix2 r j) = dense x5 x6 (normed x19 x20 (fun k => x0 (ix2 r k))) j := by
  rw [val_main_v21_apply, val_main_v18_apply, bias_g1]
  show (∑ k : Fin 64, val_main_v7 (F := Ideal) x0 x19 x20 (lidx_main_v18 (ix2 r j) k) * x5 (ridx_main_v18 (ix2 r j) k)) + x6 (ix1 j)
    = (∑ k : Fin 64, (normed x19 x20 (fun k => x0 (ix2 r k))) k * x5 (ix2 k j)) + x6 (ix1 j)
  refine congrArg (· + x6 (ix1 j)) (Finset.sum_congr rfl fun k _ => ?_)
  rw [show lidx_main_v18 (ix2 r j) k = ix2 r k from funext fun a => match a with | ⟨0, _⟩ => rfl | ⟨1, _⟩ => rfl,
    show ridx_main_v18 (ix2 r j) k = ix2 k j from funext fun a => match a with | ⟨0, _⟩ => rfl | ⟨1, _⟩ => rfl, normed_at]
/-- The gate's first layer. -/
theorem g1_at (r : Fin 1048576) (j : Fin 12) : val_main_v22 (F := Ideal) x0 x5 x6 x19 x20 (ix2 r j) = act (dense x5 x6 (normed x19 x20 (fun k => x0 (ix2 r k)))) j := by
  rw [val_main_v22_apply, g1_pre]
  rfl
/-- The gate's two logits. -/
theorem logits_at (r : Fin 1048576) (j : Fin 2) : val_main_v26 (F := Ideal) x0 x5 x6 x7 x8 x19 x20 (ix2 r j) = dense x7 x8 (act (dense x5 x6 (normed x19 x20 (fun k => x0 (ix2 r k))))) j := by
  rw [val_main_v26_apply, val_main_v23_apply, bias_g2]
  show (∑ k : Fin 12, val_main_v22 (F := Ideal) x0 x5 x6 x19 x20 (lidx_main_v23 (ix2 r j) k) * x7 (ridx_main_v23 (ix2 r j) k)) + x8 (ix1 j)
    = (∑ k : Fin 12, (act (dense x5 x6 (normed x19 x20 (fun k => x0 (ix2 r k))))) k * x7 (ix2 k j)) + x8 (ix1 j)
  refine congrArg (· + x8 (ix1 j)) (Finset.sum_congr rfl fun k _ => ?_)
  rw [show lidx_main_v23 (ix2 r j) k = ix2 r k from funext fun a => match a with | ⟨0, _⟩ => rfl | ⟨1, _⟩ => rfl,
    show ridx_main_v23 (ix2 r j) k = ix2 k j from funext fun a => match a with | ⟨0, _⟩ => rfl | ⟨1, _⟩ => rfl, g1_at]

/-! ## The softmax of the two logits -/

/-- The row's maximum, as the reference takes it (a fold from −∞, then once more against −∞). -/
theorem top_at (r : Fin 1048576) : val_main_v29 (F := Ideal) x0 x5 x6 x7 x8 x19 x20 (ix1 r) = top (dense x7 x8 (act (dense x5 x6 (normed x19 x20 (fun k => x0 (ix2 r k)))))) := by
  rw [val_main_v29_apply, val_main_v28_apply, val_main_cst_1_apply]
  unfold val_main_v27
  rw [LibRowwise.hostReduce_row FloatOps.maximumf _ _ reducesTo_S1048576x2_S1048576_d1 (by decide) h_S_ r]
  simp only [logits_at]
  rfl

/-- The exponential of a logit less the maximum. -/
theorem shifted_at (r : Fin 1048576) (j : Fin 2) : val_main_v33 (F := Ideal) x0 x5 x6 x7 x8 x19 x20 (ix2 r j) = Ideal.exp ((dense x7 x8 (act (dense x5 x6 (normed x19 x20 (fun k => x0 (ix2 r k)))))) j - top (dense x7 x8 (act (dense x5 x6 (normed x19 x20 (fun k => x0 (ix2 r k))))))) := by
  rw [val_main_v33_apply, val_main_v32_apply, val_main_v31_apply, val_main_v30_apply, logits_at,
    show idx_main_v30 (idx_main_v31 (ix2 r j)) = ix1 r from funext fun a => match a with | ⟨0, _⟩ => rfl, top_at]
  rfl

/-- The gate's two weights. -/
theorem gate_at (r : Fin 1048576) (j : Fin 2) : val_main_v37 (F := Ideal) x0 x5 x6 x7 x8 x19 x20 (ix2 r j) = (soft (dense x7 x8 (act (dense x5 x6 (normed x19 x20 (fun k => x0 (ix2 r k))))))) j := by
  rw [val_main_v37_apply, val_main_v36_apply, val_main_v35_apply, val_main_v34_apply, shifted_at]
  have e : ∀ k : Fin 2, idx_main_v34 (idx_main_v35 (idx_main_v36 (ix2 r j))) k = ix2 r k :=
    fun k => funext fun a => match a with | ⟨0, _⟩ => rfl | ⟨1, _⟩ => rfl
  simp only [e, shifted_at]
  show Ideal.div _ (Ideal.ofBits .f32 0x00000000#32 + _) = _
  rw [Ideal.ofBits_zero_f32, zero_add]
  rfl

/-! ## The experts and the skip path -/

/-- The first expert's hidden layer before tanh. -/
theorem e1a_pre (r : Fin 1048576) (j : Fin 12) : val_main_v41 (F := Ideal) x0 x1 x2 x3 x4 x9 x10 x19 x20 (ix2 r j) = dense x9 x10 (act (dense x3 x4 (act (dense x1 x2 (normed x19 x20 (fun k => x0 (ix2 r k))))))) j := by
  rw [val_main_v41_apply, val_main_v38_apply, bias_e1a]
  show (∑ k : Fin 16, val_main_v17 (F := Ideal) x0 x1 x2 x3 x4 x19 x20 (lidx_main_v38 (ix2 r j) k) * x9 (ridx_main_v38 (ix2 r j) k)) + x10 (ix1 j)
    = (∑ k : Fin 16, (act (dense x3 x4 (act (dense x1 x2 (normed x19 x20 (fun k => x0 (ix2 r k))))))) k * x9 (ix2 k j)) + x10 (ix1 j)
  refine congrArg (· + x10 (ix1 j)) (Finset.sum_congr rfl fun k _ => ?_)
  rw [show lidx_main_v38 (ix2 r j) k = ix2 r k from funext fun a => match a with | ⟨0, _⟩ => rfl | ⟨1, _⟩ => rfl,
    show ridx_main_v38 (ix2 r j) k = ix2 k j from funext fun a => match a with | ⟨0, _⟩ => rfl | ⟨1, _⟩ => rfl, hidden_at]
/-- The first expert's hidden layer. -/
theorem e1a_at (r : Fin 1048576) (j : Fin 12) : val_main_v42 (F := Ideal) x0 x1 x2 x3 x4 x9 x10 x19 x20 (ix2 r j) = act (dense x9 x10 (act (dense x3 x4 (act (dense x1 x2 (normed x19 x20 (fun k => x0 (ix2 r k)))))))) j := by
  rw [val_main_v42_apply, e1a_pre]
  rfl
/-- The first expert. -/
theorem expert1_at (r : Fin 1048576) (j : Fin 3) : val_main_v46 (F := Ideal) x0 x1 x2 x3 x4 x9 x10 x11 x12 x19 x20 (ix2 r j) = dense x11 x12 (act (dense x9 x10 (act (dense x3 x4 (act (dense x1 x2 (normed x19 x20 (fun k => x0 (ix2 r k))))))))) j := by
  rw [val_main_v46_apply, val_main_v43_apply, bias_e1b]
  show (∑ k : Fin 12, val_main_v42 (F := Ideal) x0 x1 x2 x3 x4 x9 x10 x19 x20 (lidx_main_v43 (ix2 r j) k) * x11 (ridx_main_v43 (ix2 r j) k)) + x12 (ix1 j)
    = (∑ k : Fin 12, (act (dense x9 x10 (act (dense x3 x4 (act (dense x1 x2 (normed x19 x20 (fun k => x0 (ix2 r k))))))))) k * x11 (ix2 k j)) + x12 (ix1 j)
  refine congrArg (· + x12 (ix1 j)) (Finset.sum_congr rfl fun k _ => ?_)
  rw [show lidx_main_v43 (ix2 r j) k = ix2 r k from funext fun a => match a with | ⟨0, _⟩ => rfl | ⟨1, _⟩ => rfl,
    show ridx_main_v43 (ix2 r j) k = ix2 k j from funext fun a => match a with | ⟨0, _⟩ => rfl | ⟨1, _⟩ => rfl, e1a_at]
/-- The second expert's hidden layer before tanh. -/
theorem e2a_pre (r : Fin 1048576) (j : Fin 12) : val_main_v50 (F := Ideal) x0 x1 x2 x3 x4 x13 x14 x19 x20 (ix2 r j) = dense x13 x14 (act (dense x3 x4 (act (dense x1 x2 (normed x19 x20 (fun k => x0 (ix2 r k))))))) j := by
  rw [val_main_v50_apply, val_main_v47_apply, bias_e2a]
  show (∑ k : Fin 16, val_main_v17 (F := Ideal) x0 x1 x2 x3 x4 x19 x20 (lidx_main_v47 (ix2 r j) k) * x13 (ridx_main_v47 (ix2 r j) k)) + x14 (ix1 j)
    = (∑ k : Fin 16, (act (dense x3 x4 (act (dense x1 x2 (normed x19 x20 (fun k => x0 (ix2 r k))))))) k * x13 (ix2 k j)) + x14 (ix1 j)
  refine congrArg (· + x14 (ix1 j)) (Finset.sum_congr rfl fun k _ => ?_)
  rw [show lidx_main_v47 (ix2 r j) k = ix2 r k from funext fun a => match a with | ⟨0, _⟩ => rfl | ⟨1, _⟩ => rfl,
    show ridx_main_v47 (ix2 r j) k = ix2 k j from funext fun a => match a with | ⟨0, _⟩ => rfl | ⟨1, _⟩ => rfl, hidden_at]
/-- The second expert's hidden layer. -/
theorem e2a_at (r : Fin 1048576) (j : Fin 12) : val_main_v51 (F := Ideal) x0 x1 x2 x3 x4 x13 x14 x19 x20 (ix2 r j) = act (dense x13 x14 (act (dense x3 x4 (act (dense x1 x2 (normed x19 x20 (fun k => x0 (ix2 r k)))))))) j := by
  rw [val_main_v51_apply, e2a_pre]
  rfl
/-- The second expert. -/
theorem expert2_at (r : Fin 1048576) (j : Fin 3) : val_main_v55 (F := Ideal) x0 x1 x2 x3 x4 x13 x14 x15 x16 x19 x20 (ix2 r j) = dense x15 x16 (act (dense x13 x14 (act (dense x3 x4 (act (dense x1 x2 (normed x19 x20 (fun k => x0 (ix2 r k))))))))) j := by
  rw [val_main_v55_apply, val_main_v52_apply, bias_e2b]
  show (∑ k : Fin 12, val_main_v51 (F := Ideal) x0 x1 x2 x3 x4 x13 x14 x19 x20 (lidx_main_v52 (ix2 r j) k) * x15 (ridx_main_v52 (ix2 r j) k)) + x16 (ix1 j)
    = (∑ k : Fin 12, (act (dense x13 x14 (act (dense x3 x4 (act (dense x1 x2 (normed x19 x20 (fun k => x0 (ix2 r k))))))))) k * x15 (ix2 k j)) + x16 (ix1 j)
  refine congrArg (· + x16 (ix1 j)) (Finset.sum_congr rfl fun k _ => ?_)
  rw [show lidx_main_v52 (ix2 r j) k = ix2 r k from funext fun a => match a with | ⟨0, _⟩ => rfl | ⟨1, _⟩ => rfl,
    show ridx_main_v52 (ix2 r j) k = ix2 k j from funext fun a => match a with | ⟨0, _⟩ => rfl | ⟨1, _⟩ => rfl, e2a_at]
/-- The skip path. -/
theorem skip_at (r : Fin 1048576) (j : Fin 3) : val_main_v66 (F := Ideal) x0 x17 x18 x19 x20 (ix2 r j) = dense x17 x18 (normed x19 x20 (fun k => x0 (ix2 r k))) j := by
  rw [val_main_v66_apply, val_main_v63_apply, bias_sk]
  show (∑ k : Fin 64, val_main_v7 (F := Ideal) x0 x19 x20 (lidx_main_v63 (ix2 r j) k) * x17 (ridx_main_v63 (ix2 r j) k)) + x18 (ix1 j)
    = (∑ k : Fin 64, (normed x19 x20 (fun k => x0 (ix2 r k))) k * x17 (ix2 k j)) + x18 (ix1 j)
  refine congrArg (· + x18 (ix1 j)) (Finset.sum_congr rfl fun k _ => ?_)
  rw [show lidx_main_v63 (ix2 r j) k = ix2 r k from funext fun a => match a with | ⟨0, _⟩ => rfl | ⟨1, _⟩ => rfl,
    show ridx_main_v63 (ix2 r j) k = ix2 k j from funext fun a => match a with | ⟨0, _⟩ => rfl | ⟨1, _⟩ => rfl, normed_at]

/-! ## The result -/

/-- Entry `(r, q)` of the reference's result. -/
theorem result_at (r : Fin 1048576) (q : Fin 3) :
    val_main_v75 (F := Ideal) x0 x1 x2 x3 x4 x5 x6 x7 x8 x9 x10 x11 x12 x13 x14 x15 x16 x17 x18 x19 x20 x21 x22 (ix2 r q)
      = (((soft (dense x7 x8 (act (dense x5 x6 (normed x19 x20 (fun k => x0 (ix2 r k))))))) 0 * (dense x11 x12 (act (dense x9 x10 (act (dense x3 x4 (act (dense x1 x2 (normed x19 x20 (fun k => x0 (ix2 r k)))))))))) q + (soft (dense x7 x8 (act (dense x5 x6 (normed x19 x20 (fun k => x0 (ix2 r k))))))) 1 * (dense x15 x16 (act (dense x13 x14 (act (dense x3 x4 (act (dense x1 x2 (normed x19 x20 (fun k => x0 (ix2 r k)))))))))) q) + skipWeight * (dense x17 x18 (normed x19 x20 (fun k => x0 (ix2 r k)))) q) * x22 (ix1 q) + x21 (ix1 q) := by
  rw [val_main_v75_apply, val_main_v72_apply, val_main_v69_apply, val_main_v62_apply, val_main_v58_apply, val_main_v61_apply,
    val_main_v57_apply, val_main_v56_apply, val_main_v60_apply, val_main_v59_apply, val_main_v68_apply, val_main_v67_apply,
    val_main_cst_3_apply, shift_out, scale_out, expert1_at, expert2_at, skip_at,
    show idx_main_v56 (idx_main_v57 (ix2 r q)) = ix2 r (0 : Fin 2) from funext fun a => match a with | ⟨0, _⟩ => rfl | ⟨1, _⟩ => rfl,
    show idx_main_v59 (idx_main_v60 (ix2 r q)) = ix2 r (1 : Fin 2) from funext fun a => match a with | ⟨0, _⟩ => rfl | ⟨1, _⟩ => rfl, gate_at, gate_at]
  rfl

/-- The reference's result is the row function of every row. -/
theorem reference_eq (i : S1048576x3.Idx) :
    val_main_v75 (F := Ideal) x0 x1 x2 x3 x4 x5 x6 x7 x8 x9 x10 x11 x12 x13 x14 x15 x16 x17 x18 x19 x20 x21 x22 i = result (n := 1048576) ⟨x1, x2, x3, x4, x5, x6, x7, x8, x9, x10, x11, x12, x13, x14, x15, x16, x17, x18, x19, x20, x21, x22⟩ x0 i := by
  obtain ⟨r, q, rfl⟩ : ∃ (r : Fin 1048576) (q : Fin 3), i = ix2 r q := ⟨i 0, i 1, eq_ix2 i⟩
  rw [result_at]
  rfl

end Cert.ReferenceIdeal.Rows

end
-- ==== Proof.lean ====
/-
  The claim: a small mixture-of-experts network, one pass over the rows.

  Each of the 1048576 rows `x` of the data is centred and scaled per column (the scale floored at a small constant), sent
  through a two-layer tanh backbone, and — beside it — through a gate (a tanh layer, then two logits and their softmax);
  two experts, each a tanh layer and a linear layer on the backbone's output, are mixed with the gate's two weights, a
  linear skip path on the scaled row is added with weight 0.35, and the result is scaled and shifted per output column.
  The kernel computes this 8192 rows at a time, in four bands of 2048, rounding the operands of its matrix products to a
  shorter format; the reference computes it for all rows at once. On the extended reals, with every operation exact and a
  change of format the identity, a product into a zero accumulator and the host's product are the same sum, the two
  softmaxes the same quotient, and both programs compute, entry by entry, the one row function of `Mixture`: the kernel
  because what each grid point writes back is a block of that function and the blocks cover the array (`KernelWhole`), the
  reference because each of its operations acts on the rows independently (`ReferenceRows`). No law of arithmetic beyond
  `0 + s = s` joins the two sides, so the inputs' finiteness is never used. The kernel read on the extended reals is the
  kernel's own text (no operation was rewritten), and the three frames are the generated runs.
-/
import proofs.«152233_j75230647156948_1_alg».proof.Defs
import proofs.«152233_j75230647156948_1_alg».proof.Proof.Gen.Kernel
import proofs.«152233_j75230647156948_1_alg».proof.Proof.Gen.Kernel.Frame
import proofs.«152233_j75230647156948_1_alg».proof.Proof.Gen.KernelIdeal
import proofs.«152233_j75230647156948_1_alg».proof.Proof.Gen.KernelIdeal.Frame
import proofs.«152233_j75230647156948_1_alg».proof.Proof.Gen.KernelIdeal.Value
import proofs.«152233_j75230647156948_1_alg».proof.Proof.Gen.ReferenceIdeal
import proofs.«152233_j75230647156948_1_alg».proof.Proof.Gen.ReferenceIdeal.Run
import proofs.«152233_j75230647156948_1_alg».proof.Proof.Gen.ReferenceIdeal.Read
import proofs.«152233_j75230647156948_1_alg».proof.Proof.Gen.Pre_finite_inputs
import proofs.«152233_j75230647156948_1_alg».proof.Proof.KernelWhole
import proofs.«152233_j75230647156948_1_alg».proof.Proof.ReferenceRows
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the row function of every row of the data. -/
theorem algebraic : Cert.algebraic_KernelIdeal_ReferenceIdeal := by
  intro m ρ m' ρ' _ hagree
  refine ⟨fun c => Cert.KernelIdeal.Whole.final m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  rw [Cert.ReferenceIdeal.Read.val_main_v75_eq]
  funext i
  rw [Cert.ReferenceIdeal.Rows.reference_eq, h0, h1, h2, h3, h4, h5, h6, h7, h8, h9, h10, h11, h12, h13, h14, h15, h16, h17, h18, h19, h20, h21, h22]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
